-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S64 .f32) (main_arg18 : FVec F S64x64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg18
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v33 : IVec S_ 1) : IVec S_ 1 :=
  let main_v34 : FVec F S64 .f32 := Host.absf main_arg13
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg14
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg16
  let main_cst_18 : FVec F S_ .f32 := constant S_ .f32 0x7F800000#32
  let main_v50 : FVec F S64x64 .f32 := broadcastInDim S64x64 ![] bcast_S_S64x64 main_cst_18
  fn_part3 (F := F) main_arg17 main_arg18 main_arg19 main_v48 main_v49 main_v50

def fn_part1 {F : FTy → Type} [FloatOps F] (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x64 .f32) (main_arg1 : FVec F S50000x64 .f32) (main_arg2 : IVec S1000000 32) (main_arg3 : IVec S1000000 32) (main_arg4 : IVec S1000000 32) (main_arg5 : IVec S1000000 32) (main_arg6 : IVec S1000000 32) (main_arg7 : IVec S1000000 32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x64 .f32) (main_arg19 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg8
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg9
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩

abbrev nBuf : Space → Nat
  | .hbm => 76
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1000000x64, .f32⟩
  | .hbm, ⟨60, _⟩ => ⟨S1000000x64, .f32⟩
  | .hbm, ⟨61, _⟩ => ⟨S1000000x64, .f32⟩
  | .hbm, ⟨62, _⟩ => ⟨S_, .f32⟩
  | .hbm, ⟨63, _⟩ => ⟨S100000x64, .f32⟩
  | .hbm, ⟨64, _⟩ => ⟨S1000000x1, .i32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S1000000x1, .i32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S100000x64, .f32⟩
  | .hbm, ⟨75, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v33_2 : Ref sig .tc := ⟨.hbm, 61, rfl⟩
abbrev main_cst : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem3_1 : DmaSem sig := 37

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x64 : S_.BroadcastsInDim S100000x64 (![] : Fin 0 → Fin S100000x64.rank)
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S5000x64_S64x64_S5000x64_1_0_0_1_n_n_wf : DotDims.WF S5000x64 S64x64 S5000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S1000000x64.size a
  hwx0_9 : ∀ i : grid0.Coords, EltTy.bits .f32 = 32 ∨ (Rect.block (s := S1000000x64) S5000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S1000000x64.size a
  hwx0_10 : ∀ i : grid0.Coords, EltTy.bits .f32 = 32 ∨ (Rect.block (s := S1000000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S1000000x64.size a
  hwx0_11 : ∀ i : grid0.Coords, EltTy.bits .f32 = 32 ∨ (Rect.block (s := S1000000x64) S5000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33_0) S5000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v33_1) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v33_2) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S64x64, .f32⟩
  | .hbm, ⟨38, _⟩ => ⟨S1000000x64, .f32⟩
  | .hbm, ⟨39, _⟩ => ⟨S1x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S1000000x64, .f32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S64x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S100000x64, .f32⟩
  | .hbm, ⟨68, _⟩ => ⟨S1000000x1, .i32⟩
  | .hbm, ⟨69, _⟩ => ⟨S100000x64, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .f32⟩
  | .hbm, ⟨79, _⟩ => ⟨S64x64, .f32⟩
  | .hbm, ⟨80, _⟩ => ⟨S1000000x64, .f32⟩
  | .hbm, ⟨81, _⟩ => ⟨S1x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S1000000x64, .f32⟩
  | .hbm, ⟨86, _⟩ => ⟨S1000000x64, .f32⟩
  | .hbm, ⟨87, _⟩ => ⟨S_, .f32⟩
  | .hbm, ⟨88, _⟩ => ⟨S100000x64, .f32⟩
  | .hbm, ⟨89, _⟩ => ⟨S1000000x1, .i32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S64x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S64x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x64, .f32⟩
  | .hbm, ⟨106, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call1_cst : Ref sig .tc := ⟨.hbm, 42, rfl⟩
abbrev main_call1_v0 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call2_cst : Ref sig .tc := ⟨.hbm, 63, rfl⟩
abbrev main_call2_v0 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_4 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call3_cst : Ref sig .tc := ⟨.hbm, 84, rfl⟩
abbrev main_call3_v0 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call4_cst : Ref sig .tc := ⟨.hbm, 104, rfl⟩
abbrev main_call4_v0 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  gather_S50000x64_S1000000x1_S1000000x64_1_0_n_n_0_1_164_wf : GatherDims.WF S50000x64 S1000000x1 S1000000x64 [1] [0] [] [0] [] 1 ![1, 64]
  dot_S50000x64_S64x64_S50000x64_1_0_0_1_n_n_wf : DotDims.WF S50000x64 S64x64 S50000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel's run with its two results named.

  The program is five segments: the host operations before the first call, the edge-message call, the three
  scatter-additions, the combine-and-project call and the context call. The buffer contents at the segment boundaries
  are a fold W0 … W5 from the launch memory. Every weakly fair execution terminates, faults nowhere, and ends with
  every unscoped buffer at W5; here that final state is read at the two result buffers and at the twenty arguments
  (which walk back through the fold to the launch memory).
-/
import proofs.«165270_j13804024889951_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution ends with the two results at the last boundary's contents and the arguments as launched. -/
theorem run_results : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v43 (by decide)),
       h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩)

end Cert.KernelIdeal.KVal

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.Tile.lean ====
/-
  A linear layer on rows of 64 features, over the extended reals, in the two arrangements the certificate meets.

  On a tile of 5000 rows the layer is a product into a zero accumulator plus a one-row bias stretched down the tile
  (linTile); read at row p and column q it is linAt of row p alone: the sum over k of x (p, k) · w (k, q), plus
  b (0, q). So a tile's position in its array never enters, and an array of n rows treated tile by tile holds linArr:
  row r of the result is linAt of row r of the input. The same layer with the weights held untransposed and the bias
  held as a vector is linArrT; the two agree when the tile's weights are the transpose and its bias the one-row
  reshape (linArr_transposed). A rectifier is a maximum against one fixed word z.
-/
import proofs.«165270_j13804024889951_2_alg».proof.Proof.LibDense

noncomputable section

open scoped BigOperators

namespace GnnTile

open Idealize.ShloMosaic Idealize.ShloMosaic.ValueIdx

/-- A tile: 5000 rows of 64 features. -/
abbrev T : Shape := ⟨2, ![5000, 64]⟩
/-- A weight matrix. -/
abbrev Wt : Shape := ⟨2, ![64, 64]⟩
/-- A bias held as one row. -/
abbrev Rw : Shape := ⟨2, ![1, 64]⟩
/-- A bias held as a vector. -/
abbrev V64 : Shape := ⟨1, ![64]⟩
/-- An array of n rows of 64 features. -/
abbrev Rows (n : ℕ) : Shape := ⟨2, ![n, 64]⟩

/-- The word of all zero bits as an extended real: the rectifier's threshold (never evaluated: the same word on both sides). -/
abbrev z0 : EReal := Ideal.ofBits .f32 0x00000000#32

/-- A row [1,N] stretched to [M,N] reads, at (r, c), the row's entry of column c. -/
theorem broadcast_row_apply {M N : ℕ} {α : Type} (v : (⟨2, ![1, N]⟩ : Shape).Idx → α)
    (h : (⟨2, ![1, N]⟩ : Shape).Broadcasts ⟨2, ![M, N]⟩) (r : Fin M) (c : Fin N) :
    broadcastTo ⟨2, ![M, N]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if N = 1 then 0 else c.val
    split
    · have := c.isLt; omega
    · rfl

/-- One output of the layer on one row x: the sum over k of x k · w (k, q), plus the bias of column q. -/
def linAt (x : Fin 64 → EReal) (w : Wt.Idx → EReal) (b : Rw.Idx → EReal) (q : Fin 64) : EReal :=
  (∑ k : Fin 64, x k * w (ix2 k q)) + b (ix2 (0 : Fin 1) q)

/-- The layer on a tile as vector operations compute it: the product into the zero accumulator plus the stretched bias. -/
def linTile (d : DotDims T Wt T) (hb : Rw.Broadcasts T) (x : T.Idx → EReal) (w : Wt.Idx → EReal) (b : Rw.Idx → EReal) :
    T.Idx → EReal :=
  addf (F := Ideal) (φ := .f32) (matmul (F := Ideal) (φ₁ := .bf16) (φ₂ := .bf16) d none x w (constant (F := Ideal) T .f32 0x00000000#32))
    (broadcastTo T b hb)

/-- The tile computation at (p, q) is the layer on row p of the tile. -/
theorem linTile_apply (d : DotDims T Wt T) (hd : d = DotDims.plain 5000 64 64) (hb : Rw.Broadcasts T)
    (x : T.Idx → EReal) (w : Wt.Idx → EReal) (b : Rw.Idx → EReal) (p : Fin 5000) (q : Fin 64) :
    linTile d hb x w b (ix2 p q) = linAt (fun k => x (ix2 p k)) w b q := by
  unfold linTile linAt
  rw [addf_apply]
  rw [LibDense.plain_matmul_apply (φ₁ := .bf16) (φ₂ := .bf16) d hd none x w p q, broadcast_row_apply b hb p q]

/-- The layer followed by a maximum against the splat z, at (p, q). -/
theorem reluTile_apply (d : DotDims T Wt T) (hd : d = DotDims.plain 5000 64 64) (hb : Rw.Broadcasts T) (z : EReal)
    (x : T.Idx → EReal) (w : Wt.Idx → EReal) (b : Rw.Idx → EReal) (p : Fin 5000) (q : Fin 64) :
    maximumf (F := Ideal) (φ := .f32) (linTile d hb x w b) (broadcast T z) (ix2 p q) = max (linAt (fun k => x (ix2 p k)) w b q) z := by
  rw [maximumf_apply, broadcast_apply, linTile_apply d hd hb x w b p q]

/-- The layer on every row of an array of n rows. -/
def linArr {n : ℕ} (X : (Rows n).Idx → EReal) (w : Wt.Idx → EReal) (b : Rw.Idx → EReal) : (Rows n).Idx → EReal :=
  fun i => linAt (fun k => X (ix2 (i 0 : Fin n) k)) w b (i 1 : Fin 64)

theorem linArr_apply {n : ℕ} (X : (Rows n).Idx → EReal) (w : Wt.Idx → EReal) (b : Rw.Idx → EReal) (r : Fin n) (q : Fin 64) :
    linArr X w b (ix2 r q) = linAt (fun k => X (ix2 r k)) w b q := rfl

/-- A maximum against the word z at every entry. -/
def reluArr {n : ℕ} (z : EReal) (f : (Rows n).Idx → EReal) : (Rows n).Idx → EReal := fun i => max (f i) z

theorem reluArr_apply {n : ℕ} (z : EReal) (f : (Rows n).Idx → EReal) (i : (Rows n).Idx) : reluArr z f i = max (f i) z := rfl

/-- The layer with the weights held as [out, in] and the bias as a vector: entry (r, q) is the sum over k of
    X (r, k) · W (q, k), plus b q. -/
def linArrT {n : ℕ} (X : (Rows n).Idx → EReal) (W : Wt.Idx → EReal) (b : V64.Idx → EReal) : (Rows n).Idx → EReal :=
  fun i => (∑ k : Fin 64, X (ix2 (i 0 : Fin n) k) * W (ix2 (i 1 : Fin 64) k)) + b (ix1 (i 1 : Fin 64))

theorem linArrT_apply {n : ℕ} (X : (Rows n).Idx → EReal) (W : Wt.Idx → EReal) (b : V64.Idx → EReal) (r : Fin n) (q : Fin 64) :
    linArrT X W b (ix2 r q) = (∑ k : Fin 64, X (ix2 r k) * W (ix2 q k)) + b (ix1 q) := rfl

/-- With the tile's weights the transpose of W and its bias the one-row reshape of b, the two arrangements agree. -/
theorem linArr_transposed {n : ℕ} (X : (Rows n).Idx → EReal) (W : Wt.Idx → EReal) (b : V64.Idx → EReal)
    (wT : Wt.Idx → EReal) (b2 : Rw.Idx → EReal)
    (hw : ∀ k q : Fin 64, wT (ix2 k q) = W (ix2 q k)) (hb : ∀ q : Fin 64, b2 (ix2 (0 : Fin 1) q) = b (ix1 q)) :
    linArr X wT b2 = linArrT X W b := by
  funext i
  exact congrArg₂ (· + ·)
    (Finset.sum_congr rfl fun k _ => congrArg (X (ix2 (i 0 : Fin n) k) * ·) (hw k (i 1 : Fin 64)))
    (hb (i 1 : Fin 64))

end GnnTile

end
-- ==== Proof.Region0.lean ====
/-
  The edge-message call: three message arrays, each max(G · Wᵀ + b, 0) on a gathered array G of a million rows,
  computed 5000 rows at a time over 200 grid points.

  At grid point t the body sees rows 5000·t … 5000·t + 4999 of each gathered array, and whole, each edge type's
  transposed weight matrix and one-row bias; in each output block it leaves, at (p, q), the maximum of the layer on row
  p of that edge type's block and the zero word. Each output's two hundred blocks tile its array, so the array ends
  holding that function of row r at every (r, q). The three outputs do not interact.
-/
import proofs.«165270_j13804024889951_2_alg».proof.Proof.Gen.KernelIdeal.Frame
import proofs.«165270_j13804024889951_2_alg».proof.Proof.Tile

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open GnnTile

variable (V : (c : Dev nD) → (b : Ref sig .tc) → Buf (Elt Ideal) ((c : Thread nD τ).loc b))

theorem hz : (![0, 0] : Fin 2 → Nat) = fun _ => 0 := funext fun a => by fin_cases a <;> rfl

/-- The call's products are the plain one: rows by columns. -/
theorem dot_plain : dot_S5000x64_S64x64_S5000x64_1_0_0_1_n_n = DotDims.plain 5000 64 64 := rfl

/-! ## Output 9: the forward-edge messages -/

/-- The body's arithmetic for this output: the layer on the tile, then the maximum against the zero word. -/
theorem pay_eq_a (y0 : Vec Ideal S5000x64 .f32) (y1 : Vec Ideal S64x64 .f32) (y2 : Vec Ideal S1x64 .f32) :
    k0_pay5 (F := Ideal) y0 y1 y2
      = maximumf (F := Ideal) (φ := .f32) (linTile dot_S5000x64_S64x64_S5000x64_1_0_0_1_n_n broadcasts_S1x64_S5000x64 y0 y1 y2)
          (broadcast S5000x64 z0) := by
  unfold k0_pay5 linTile
  simp only [shapeCast_self]
  rfl

/-- What the body leaves in output block 9, at (p, q). -/
theorem out_apply_a (x0 x1 x2 : Vec Ideal S5000x64 .f32) (x3 : Vec Ideal S64x64 .f32) (x4 : Vec Ideal S1x64 .f32) (x5 : Vec Ideal S64x64 .f32) (x6 : Vec Ideal S1x64 .f32) (x7 : Vec Ideal S64x64 .f32) (x8 : Vec Ideal S1x64 .f32)
    (p : Fin 5000) (q : Fin 64) :
    out0_9 (F := Ideal) x0 x1 x2 x3 x4 x5 x6 x7 x8 (ix2 p q) = max (linAt (fun k => x0 (ix2 p k)) x3 x4 q) z0 := by
  unfold out0_9
  rw [View.canon_unit_zero hz]
  simp only [View.ld_unit_zero (S := S5000x64) hz, View.ld_unit_zero (S := S64x64) hz, View.ld_unit_zero (S := S1x64) hz]
  rw [pay_eq_a]
  exact reluTile_apply _ dot_plain _ z0 x0 x3 x4 p q

/-- The index maps over the grid: the gathered rows move with the output rows, the weights and the bias stay. -/
theorem idx_facts_a : ∀ t : Fin cfg0.N,
    win0_0.index t (0 : Fin 2) = win0_9.index t (0 : Fin 2) ∧ win0_0.index t (1 : Fin 2) = 0 ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_9.index t (0 : Fin 2) ≤ 199 :=
  (by decide +kernel : ∀ t : Fin grid0.N, _)

/-- Every block of rows is some point's. -/
theorem idx_onto_a : ∀ q0 : Fin 200, ∃ t : Fin cfg0.N, win0_9.index t = ![q0.val, 0] :=
  (by decide +kernel : ∀ q0 : Fin 200, ∃ t : Fin grid0.N, win0_9.index t = ![q0.val, 0])

/-- The array the call leaves in output 9. -/
abbrev msg_a (c : Dev nD) : (Rows 1000000).Idx → EReal :=
  reluArr z0 (linArr (n := 1000000) (V c main_v6) (V c main_v21) (V c main_v27))

/-- What point t writes back is block t of that array. -/
theorem flushed_eq_a (c : Dev nD) (t : Fin cfg0.N) :
    (dat0 V c).flushed 9 t = ((cfg0.win 9).blk t).view.read (Elt Ideal) (msg_a V c) := by
  show (cfg0.win 9).cut (grid0.coords t) ((dat0 V c).after 9 t) = _
  rw [after0_9]
  obtain ⟨e0, e1, e2, e3, e4, e5, e6, e7⟩ := idx_facts_a t
  funext j
  obtain ⟨p, q, rfl⟩ : ∃ (p : Fin 5000) (q : Fin 64), j = ix2 p q := ⟨j 0, j 1, eq_ix2 j⟩
  refine (out_apply_a (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  have hr : win0_9.index t (0 : Fin 2) * 5000 + p.val < 1000000 := by have := p.isLt; omega
  have hi : ((cfg0.win 9).blk t).view.emb (ix2 p q) = ix2 (⟨win0_9.index t (0 : Fin 2) * 5000 + p.val, hr⟩ : Fin 1000000) q := by
    funext a; apply Fin.ext
    match a with
    | ⟨0, _⟩ => show win0_9.index t (0 : Fin 2) * 5000 + 1 * p.val = win0_9.index t (0 : Fin 2) * 5000 + p.val; omega
    | ⟨1, _⟩ => show win0_9.index t (1 : Fin 2) * 64 + 1 * q.val = q.val; omega
  show _ = msg_a V c (((cfg0.win 9).blk t).view.emb (ix2 p q))
  rw [hi]
  show _ = max (linAt (fun k => V c main_v6 (ix2 (⟨win0_9.index t (0 : Fin 2) * 5000 + p.val, hr⟩ : Fin 1000000) k)) (V c main_v21) (V c main_v27) q) z0
  have h0 : (fun k : Fin 64 => iblk0 V c 0 t (ix2 p k))
      = fun k => V c main_v6 (ix2 (⟨win0_9.index t (0 : Fin 2) * 5000 + p.val, hr⟩ : Fin 1000000) k) := funext fun k => by
    show V c main_v6 (((cfg0.win 0).blk t).view.emb (ix2 p k)) = _
    refine congrArg _ (funext fun a => Fin.ext ?_)
    match a with
    | ⟨0, _⟩ => show win0_0.index t (0 : Fin 2) * 5000 + 1 * p.val = win0_9.index t (0 : Fin 2) * 5000 + p.val; omega
    | ⟨1, _⟩ => show win0_0.index t (1 : Fin 2) * 64 + 1 * k.val = k.val; omega
  have h1 : (iblk0 V c 3 t : Wt.Idx → EReal) = V c main_v21 := funext fun y => by
    show V c main_v21 (((cfg0.win 3).blk t).view.emb y) = V c main_v21 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have h2 : (iblk0 V c 4 t : Rw.Idx → EReal) = V c main_v27 := funext fun y => by
    show V c main_v27 (((cfg0.win 4).blk t).view.emb y) = V c main_v27 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  rw [h0, h1, h2]

/-- An index of the array is in point t's block iff each coordinate is in the block's range on its axis. -/
theorem mem_blk_a (t : Fin cfg0.N) (i : S1000000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v33_0).slice (win0_9.rect t)).set ↔ _
  rw [View.set_slice_whole, Rect.mem_set_unit]
  exact Iff.rfl

/-- The two hundred blocks cover the array: row r is in the block of point r / 5000. -/
theorem cover_a (i : S1000000x64.Idx) : ∃ t : Fin cfg0.N, (cfg0.win 9).flush t = true ∧ i ∈ ((cfg0.win 9).blk t).view.set := by
  have hi0 : (i 0).val < 1000000 := (i 0).isLt
  have hi1 : (i 1).val < 64 := (i 1).isLt
  obtain ⟨t, ht⟩ := idx_onto_a ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk_a]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- THE ARRAY after the call: the rectified layer on every gathered row as the call finds it. -/
theorem final_a (c : Dev nD) : (dat0 V c).arrAt 9 cfg0.N = msg_a V c :=
  (dat0 V c).arrAt_eq_of_cover 9 (msg_a V c) (fun t _ => flushed_eq_a V c t) cover_a

/-! ## Output 10: the backward-edge messages -/

/-- The body's arithmetic for this output: the layer on the tile, then the maximum against the zero word. -/
theorem pay_eq_b (y0 : Vec Ideal S5000x64 .f32) (y1 : Vec Ideal S64x64 .f32) (y2 : Vec Ideal S1x64 .f32) :
    k0_pay1 (F := Ideal) (k0_pay3 (F := Ideal) y0 y1 y2)
      = maximumf (F := Ideal) (φ := .f32) (linTile dot_S5000x64_S64x64_S5000x64_1_0_0_1_n_n broadcasts_S1x64_S5000x64 y0 y1 y2)
          (broadcast S5000x64 z0) := by
  unfold k0_pay1 k0_pay3 linTile
  simp only [shapeCast_self]
  rfl

/-- What the body leaves in output block 10, at (p, q). -/
theorem out_apply_b (x0 x1 x2 : Vec Ideal S5000x64 .f32) (x3 : Vec Ideal S64x64 .f32) (x4 : Vec Ideal S1x64 .f32) (x5 : Vec Ideal S64x64 .f32) (x6 : Vec Ideal S1x64 .f32) (x7 : Vec Ideal S64x64 .f32) (x8 : Vec Ideal S1x64 .f32)
    (p : Fin 5000) (q : Fin 64) :
    out0_10 (F := Ideal) x0 x1 x2 x3 x4 x5 x6 x7 x8 (ix2 p q) = max (linAt (fun k => x1 (ix2 p k)) x5 x6 q) z0 := by
  unfold out0_10
  rw [View.canon_unit_zero hz]
  simp only [View.ld_unit_zero (S := S5000x64) hz, View.ld_unit_zero (S := S64x64) hz, View.ld_unit_zero (S := S1x64) hz]
  rw [pay_eq_b]
  exact reluTile_apply _ dot_plain _ z0 x1 x5 x6 p q

/-- The index maps over the grid: the gathered rows move with the output rows, the weights and the bias stay. -/
theorem idx_facts_b : ∀ t : Fin cfg0.N,
    win0_1.index t (0 : Fin 2) = win0_10.index t (0 : Fin 2) ∧ win0_1.index t (1 : Fin 2) = 0 ∧ win0_10.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_10.index t (0 : Fin 2) ≤ 199 :=
  (by decide +kernel : ∀ t : Fin grid0.N, _)

/-- Every block of rows is some point's. -/
theorem idx_onto_b : ∀ q0 : Fin 200, ∃ t : Fin cfg0.N, win0_10.index t = ![q0.val, 0] :=
  (by decide +kernel : ∀ q0 : Fin 200, ∃ t : Fin grid0.N, win0_10.index t = ![q0.val, 0])

/-- The array the call leaves in output 10. -/
abbrev msg_b (c : Dev nD) : (Rows 1000000).Idx → EReal :=
  reluArr z0 (linArr (n := 1000000) (V c main_v13) (V c main_v22) (V c main_v28))

/-- What point t writes back is block t of that array. -/
theorem flushed_eq_b (c : Dev nD) (t : Fin cfg0.N) :
    (dat0 V c).flushed 10 t = ((cfg0.win 10).blk t).view.read (Elt Ideal) (msg_b V c) := by
  show (cfg0.win 10).cut (grid0.coords t) ((dat0 V c).after 10 t) = _
  rw [after0_10]
  obtain ⟨e0, e1, e2, e3, e4, e5, e6, e7⟩ := idx_facts_b t
  funext j
  obtain ⟨p, q, rfl⟩ : ∃ (p : Fin 5000) (q : Fin 64), j = ix2 p q := ⟨j 0, j 1, eq_ix2 j⟩
  refine (out_apply_b (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  have hr : win0_10.index t (0 : Fin 2) * 5000 + p.val < 1000000 := by have := p.isLt; omega
  have hi : ((cfg0.win 10).blk t).view.emb (ix2 p q) = ix2 (⟨win0_10.index t (0 : Fin 2) * 5000 + p.val, hr⟩ : Fin 1000000) q := by
    funext a; apply Fin.ext
    match a with
    | ⟨0, _⟩ => show win0_10.index t (0 : Fin 2) * 5000 + 1 * p.val = win0_10.index t (0 : Fin 2) * 5000 + p.val; omega
    | ⟨1, _⟩ => show win0_10.index t (1 : Fin 2) * 64 + 1 * q.val = q.val; omega
  show _ = msg_b V c (((cfg0.win 10).blk t).view.emb (ix2 p q))
  rw [hi]
  show _ = max (linAt (fun k => V c main_v13 (ix2 (⟨win0_10.index t (0 : Fin 2) * 5000 + p.val, hr⟩ : Fin 1000000) k)) (V c main_v22) (V c main_v28) q) z0
  have h0 : (fun k : Fin 64 => iblk0 V c 1 t (ix2 p k))
      = fun k => V c main_v13 (ix2 (⟨win0_10.index t (0 : Fin 2) * 5000 + p.val, hr⟩ : Fin 1000000) k) := funext fun k => by
    show V c main_v13 (((cfg0.win 1).blk t).view.emb (ix2 p k)) = _
    refine congrArg _ (funext fun a => Fin.ext ?_)
    match a with
    | ⟨0, _⟩ => show win0_1.index t (0 : Fin 2) * 5000 + 1 * p.val = win0_10.index t (0 : Fin 2) * 5000 + p.val; omega
    | ⟨1, _⟩ => show win0_1.index t (1 : Fin 2) * 64 + 1 * k.val = k.val; omega
  have h1 : (iblk0 V c 5 t : Wt.Idx → EReal) = V c main_v22 := funext fun y => by
    show V c main_v22 (((cfg0.win 5).blk t).view.emb y) = V c main_v22 y
    refine congrArg _ (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  have h2 : (iblk0 V c 6 t : Rw.Idx → EReal) = V c main_v28 := funext fun y => by
    show V c main_v28 (((cfg0.win 6).blk t).view.emb y) = V c main_v28 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  rw [h0, h1, h2]

/-- An index of the array is in point t's block iff each coordinate is in the block's range on its axis. -/
theorem mem_blk_b (t : Fin cfg0.N) (i : S1000000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v33_1).slice (win0_10.rect t)).set ↔ _
  rw [View.set_slice_whole, Rect.mem_set_unit]
  exact Iff.rfl

/-- The two hundred blocks cover the array: row r is in the block of point r / 5000. -/
theorem cover_b (i : S1000000x64.Idx) : ∃ t : Fin cfg0.N, (cfg0.win 10).flush t = true ∧ i ∈ ((cfg0.win 10).blk t).view.set := by
  have hi0 : (i 0).val < 1000000 := (i 0).isLt
  have hi1 : (i 1).val < 64 := (i 1).isLt
  obtain ⟨t, ht⟩ := idx_onto_b ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  rw [mem_blk_b]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

/-- THE ARRAY after the call: the rectified layer on every gathered row as the call finds it. -/
theorem final_b (c : Dev nD) : (dat0 V c).arrAt 10 cfg0.N = msg_b V c :=
  (dat0 V c).arrAt_eq_of_cover 10 (msg_b V c) (fun t _ => flushed_eq_b V c t) cover_b

/-! ## Output 11: the context-edge messages -/

/-- The body's arithmetic for this output: the layer on the tile, then the maximum against the zero word. -/
theorem pay_eq_c (y0 : Vec Ideal S5000x64 .f32) (y1 : Vec Ideal S64x64 .f32) (y2 : Vec Ideal S1x64 .f32) :
    k0_pay2 (F := Ideal) (k0_pay4 (F := Ideal) y0 y1 y2)
      = maximumf (F := Ideal) (φ := .f32) (linTile dot_S5000x64_S64x64_S5000x64_1_0_0_1_n_n broadcasts_S1x64_S5000x64 y0 y1 y2)
          (broadcast S5000x64 z0) := by
  unfold k0_pay2 k0_pay4 linTile
  simp only [shapeCast_self]
  rfl

/-- What the body leaves in output block 11, at (p, q). -/
theorem out_apply_c (x0 x1 x2 : Vec Ideal S5000x64 .f32) (x3 : Vec Ideal S64x64 .f32) (x4 : Vec Ideal S1x64 .f32) (x5 : Vec Ideal S64x64 .f32) (x6 : Vec Ideal S1x64 .f32) (x7 : Vec Ideal S64x64 .f32) (x8 : Vec Ideal S1x64 .f32)
    (p : Fin 5000) (q : Fin 64) :
    out0_11 (F := Ideal) x0 x1 x2 x3 x4 x5 x6 x7 x8 (ix2 p q) = max (linAt (fun k => x2 (ix2 p k)) x7 x8 q) z0 := by
  unfold out0_11
  rw [View.canon_unit_zero hz]
  simp only [View.ld_unit_zero (S := S5000x64) hz, View.ld_unit_zero (S := S64x64) hz, View.ld_unit_zero (S := S1x64) hz]
  rw [pay_eq_c]
  exact reluTile_apply _ dot_plain _ z0 x2 x7 x8 p q

/-- The index maps over the grid: the gathered rows move with the output rows, the weights and the bias stay. -/
theorem idx_facts_c : ∀ t : Fin cfg0.N,
    win0_2.index t (0 : Fin 2) = win0_11.index t (0 : Fin 2) ∧ win0_2.index t (1 : Fin 2) = 0 ∧ win0_11.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_11.index t (0 : Fin 2) ≤ 199 :=
  (by decide +kernel : ∀ t : Fin grid0.N, _)

/-- Every block of rows is some point's. -/
theorem idx_onto_c : ∀ q0 : Fin 200, ∃ t : Fin cfg0.N, win0_11.index t = ![q0.val, 0] :=
  (by decide +kernel : ∀ q0 : Fin 200, ∃ t : Fin grid0.N, win0_11.index t = ![q0.val, 0])

/-- The array the call leaves in output 11. -/
abbrev msg_c (c : Dev nD) : (Rows 1000000).Idx → EReal :=
  reluArr z0 (linArr (n := 1000000) (V c main_v20) (V c main_v23) (V c main_v29))

/-- What point t writes back is block t of that array. -/
theorem flushed_eq_c (c : Dev nD) (t : Fin cfg0.N) :
    (dat0 V c).flushed 11 t = ((cfg0.win 11).blk t).view.read (Elt Ideal) (msg_c V c) := by
  show (cfg0.win 11).cut (grid0.coords t) ((dat0 V c).after 11 t) = _
  rw [after0_11]
  obtain ⟨e0, e1, e2, e3, e4, e5, e6, e7⟩ := idx_facts_c t
  funext j
  obtain ⟨p, q, rfl⟩ : ∃ (p : Fin 5000) (q : Fin 64), j = ix2 p q := ⟨j 0, j 1, eq_ix2 j⟩
  refine (out_apply_c (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  have hr : win0_11.index t (0 : Fin 2) * 5000 + p.val < 1000000 := by have := p.isLt; omega
  have hi : ((cfg0.win 11).blk t).view.emb (ix2 p q) = ix2 (⟨win0_11.index t (0 : Fin 2) * 5000 + p.val, hr⟩ : Fin 1000000) q := by
    funext a; apply Fin.ext
    match a with
    | ⟨0, _⟩ => show win0_11.index t (0 : Fin 2) * 5000 + 1 * p.val = win0_11.index t (0 : Fin 2) * 5000 + p.val; omega
    | ⟨1, _⟩ => show win0_11.index t (1 : Fin 2) * 64 + 1 * q.val = q.val; omega
  show _ = msg_c V c (((cfg0.win 11).blk t).view.emb (ix2 p q))
  rw [hi]
  show _ = max (linAt (fun k => V c main_v20 (ix2 (⟨win0_11.index t (0 : Fin 2) * 5000 + p.val, hr⟩ : Fin 1000000) k)) (V c main_v23) (V c main_v29) q) z0
  have h0 : (fun k : Fin 64 => iblk0 V c 2 t (ix2 p k))
      = fun k => V c main_v20 (ix2 (⟨win0_11.index t (0 : Fin 2) * 5000 + p.val, hr⟩ : Fin 1000000) k) := funext fun k => by
    show V c main_v20 (((cfg0.win 2).blk t).view.emb (ix2 p k)) = _
    refine congrArg _ (funext fun a => Fin.ext ?_)
    match a with
    | ⟨0, _⟩ => show win0_2.index t (0 : Fin 2) * 5000 + 1 * p.val = win0_11.index t (0 : Fin 2) * 5000 + p.val; omega
    | ⟨1, _⟩ => show win0_2.index t (1 : Fin 2) * 64 + 1 * k.val = k.val; omega
  have h1 : (iblk0 V c 7 t : Wt.Idx → EReal) = V c main_v23 := funext fun y => by
    show V c main_v23 (((cfg0.win 7).blk t).view.emb y) = V c main_v23 y
    refine congrArg _ (funext fun a => Fin.ext ?_)
    match a with
    | ⟨0, _⟩ => show win0_7.index t (0 : Fin 2) * 64 + 1 * (y 0).val = (y 0).val; omega
    | ⟨1, _⟩ => show win0_7.index t (1 : Fin 2) * 64 + 1 * (y 1).val = (y 1).val; omega
  have h2 : (iblk0 V c 8 t : Rw.Idx → EReal) = V c main_v29 := funext fun y => by
    show V c main_v29 (((cfg0.win 8).blk t).view.emb y) = V c main_v29 y
    refine congrArg _ (funext fun a => Fin.ext ?_)
    match a with
    | ⟨0, _⟩ => show win0_8.index t (0 : Fin 2) * 1 + 1 * (y 0).val = (y 0).val; omega
    | ⟨1, _⟩ => show win0_8.index t (1 : Fin 2) * 64 + 1 * (y 1).val = (y 1).val; omega
  rw [h0, h1, h2]

/-- An index of the array is in point t's block iff each coordinate is in the block's range on its axis. -/
theorem mem_blk_c (t : Fin cfg0.N) (i : S1000000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v33_2).slice (win0_11.rect t)).set ↔ _
  rw [View.set_slice_whole, Rect.mem_set_unit]
  exact Iff.rfl

/-- The two hundred blocks cover the array: row r is in the block of point r / 5000. -/
theorem cover_c (i : S1000000x64.Idx) : ∃ t : Fin cfg0.N, (cfg0.win 11).flush t = true ∧ i ∈ ((cfg0.win 11).blk t).view.set := by
  have hi0 : (i 0).val < 1000000 := (i 0).isLt
  have hi1 : (i 1).val < 64 := (i 1).isLt
  obtain ⟨t, ht⟩ := idx_onto_c ⟨(i 0).val / 5000, by omega⟩
  have q0 : win0_11.index t (0 : Fin 2) = (i 0).val / 5000 := congrFun ht 0
  have q1 : win0_11.index t (1 : Fin 2) = 0 := congrFun ht 1
  refine ⟨t, flush0_11 t, ?_⟩
  rw [mem_blk_c]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 64 ≤ (i 1).val ∧ (i 1).val < win0_11.index t (1 : Fin 2) * 64 + 64; omega

/-- THE ARRAY after the call: the rectified layer on every gathered row as the call finds it. -/
theorem final_c (c : Dev nD) : (dat0 V c).arrAt 11 cfg0.N = msg_c V c :=
  (dat0 V c).arrAt_eq_of_cover 11 (msg_c V c) (fun t _ => flushed_eq_c V c t) cover_c

end Cert.KernelIdeal.Region0

end
-- ==== Proof.Region1.lean ====
/-
  The combine-and-project call: out_x = (max(x · Wxᵀ + bx, 0) + m1 + m2 + m3) · Wpᵀ + bp, the sum taken left to
  right, computed 5000 rows at a time over 20 grid points.

  At grid point t the body sees rows 5000·t … 5000·t + 4999 of x and of the three scattered message arrays, and whole,
  the two transposed weight matrices and the two one-row biases. In the output block it leaves, at (p, q), the second
  layer applied to the row whose entry k is the rectified first layer on row p of x, at k, plus the three message
  entries at (p, k). The twenty output blocks tile the array, so the array ends holding that function of row r.
-/
import proofs.«165270_j13804024889951_2_alg».proof.Proof.Gen.KernelIdeal.Frame
import proofs.«165270_j13804024889951_2_alg».proof.Proof.Tile

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open GnnTile

variable (V : (c : Dev nD) → (b : Ref sig .tc) → Buf (Elt Ideal) ((c : Thread nD τ).loc b))

theorem hz : (![0, 0] : Fin 2 → Nat) = fun _ => 0 := funext fun a => by fin_cases a <;> rfl

/-- The call's products are the plain one: rows by columns. -/
theorem dot_plain : dot_S5000x64_S64x64_S5000x64_1_0_0_1_n_n = DotDims.plain 5000 64 64 := rfl

/-- The body's arithmetic: the second layer on the tile of sums. -/
theorem pay_eq (y0 : Vec Ideal S5000x64 .f32) (y4 : Vec Ideal S64x64 .f32) (y5 : Vec Ideal S1x64 .f32)
    (y1 y2 y3 : Vec Ideal S5000x64 .f32) (y6 : Vec Ideal S64x64 .f32) (y7 : Vec Ideal S1x64 .f32) :
    k1_pay1 (F := Ideal) y0 y4 y5 y1 y2 y3 y6 y7
      = linTile dot_S5000x64_S64x64_S5000x64_1_0_0_1_n_n broadcasts_S1x64_S5000x64
          (addf (F := Ideal) (φ := .f32) (addf (F := Ideal) (φ := .f32) (addf (F := Ideal) (φ := .f32)
            (maximumf (F := Ideal) (φ := .f32) (linTile dot_S5000x64_S64x64_S5000x64_1_0_0_1_n_n broadcasts_S1x64_S5000x64 y0 y4 y5)
              (broadcast S5000x64 z0)) y1) y2) y3) y6 y7 := by
  unfold k1_pay1 linTile
  simp only [shapeCast_self]
  rfl

/-- What the body leaves in the output block, at (p, q). -/
theorem out_apply (x0 x1 x2 x3 : Vec Ideal S5000x64 .f32) (x4 : Vec Ideal S64x64 .f32) (x5 : Vec Ideal S1x64 .f32)
    (x6 : Vec Ideal S64x64 .f32) (x7 : Vec Ideal S1x64 .f32) (p : Fin 5000) (q : Fin 64) :
    out1_8 (F := Ideal) x0 x1 x2 x3 x4 x5 x6 x7 (ix2 p q)
      = linAt (fun k => ((max (linAt (fun k' => x0 (ix2 p k')) x4 x5 k) z0 + x1 (ix2 p k)) + x2 (ix2 p k)) + x3 (ix2 p k)) x6 x7 q := by
  unfold out1_8
  rw [View.canon_unit_zero hz]
  simp only [View.ld_unit_zero (S := S5000x64) hz, View.ld_unit_zero (S := S64x64) hz, View.ld_unit_zero (S := S1x64) hz]
  rw [pay_eq]
  refine (linTile_apply _ dot_plain _ _ x6 x7 p q).trans ?_
  refine congrArg (fun f => linAt f x6 x7 q) (funext fun k => ?_)
  rw [addf_apply, addf_apply, addf_apply]
  rw [reluTile_apply _ dot_plain _ z0 x0 x4 x5 p k]

/-- The index maps over the grid: the rows of x and of the three message arrays move with the output rows, the
    weights and the biases stay. -/
theorem idx_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = win1_8.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 ∧ win1_8.index t (0 : Fin 2) ≤ 19 :=
  (by decide +kernel : ∀ t : Fin grid1.N, _)

/-- Every block of rows is some point's. -/
theorem idx_onto : ∀ q0 : Fin 20, ∃ t : Fin cfg1.N, win1_8.index t = ![q0.val, 0] :=
  (by decide +kernel : ∀ q0 : Fin 20, ∃ t : Fin grid1.N, win1_8.index t = ![q0.val, 0])

/-- The aggregated array: the rectified self layer plus the three message arrays, left to right. -/
abbrev agg (c : Dev nD) : (Rows 100000).Idx → EReal := fun j =>
  ((reluArr z0 (linArr (n := 100000) (V c main_arg0) (V c main_v24) (V c main_v30)) j + V c main_v36 j) + V c main_v39 j) + V c main_v42 j

/-- The array the call leaves. -/
abbrev outX (c : Dev nD) : (Rows 100000).Idx → EReal :=
  linArr (n := 100000) (agg V c) (V c main_v25) (V c main_v31)

/-- What point t writes back is block t of that array. -/
theorem flushed_eq (c : Dev nD) (t : Fin cfg1.N) :
    (dat1 V c).flushed 8 t = ((cfg1.win 8).blk t).view.read (Elt Ideal) (outX V c) := by
  show (cfg1.win 8).cut (grid1.coords t) ((dat1 V c).after 8 t) = _
  rw [after1_8]
  obtain ⟨e0, e1, e2, e3, e4, e5, e6, e7, e8, e9, e10, e11, e12, e13, e14, e15, e16, e17⟩ := idx_facts t
  funext j
  obtain ⟨p, q, rfl⟩ : ∃ (p : Fin 5000) (q : Fin 64), j = ix2 p q := ⟨j 0, j 1, eq_ix2 j⟩
  refine (out_apply (iblk1 V c 0 t) (iblk1 V c 1 t) (iblk1 V c 2 t) (iblk1 V c 3 t) (iblk1 V c 4 t) (iblk1 V c 5 t) (iblk1 V c 6 t) (iblk1 V c 7 t) p q).trans ?_
  have hr : win1_8.index t (0 : Fin 2) * 5000 + p.val < 100000 := by have := p.isLt; omega
  have hi : ((cfg1.win 8).blk t).view.emb (ix2 p q) = ix2 (⟨win1_8.index t (0 : Fin 2) * 5000 + p.val, hr⟩ : Fin 100000) q := by
    funext a; apply Fin.ext
    match a with
    | ⟨0, _⟩ => show win1_8.index t (0 : Fin 2) * 5000 + 1 * p.val = win1_8.index t (0 : Fin 2) * 5000 + p.val; omega
    | ⟨1, _⟩ => show win1_8.index t (1 : Fin 2) * 64 + 1 * q.val = q.val; omega
  show _ = outX V c (((cfg1.win 8).blk t).view.emb (ix2 p q))
  rw [hi]
  show _ = linAt (fun k => ((max (linAt (fun k' => V c main_arg0 (ix2 (⟨win1_8.index t (0 : Fin 2) * 5000 + p.val, hr⟩ : Fin 100000) k')) (V c main_v24) (V c main_v30) k) z0
      + V c main_v36 (ix2 (⟨win1_8.index t (0 : Fin 2) * 5000 + p.val, hr⟩ : Fin 100000) k))
      + V c main_v39 (ix2 (⟨win1_8.index t (0 : Fin 2) * 5000 + p.val, hr⟩ : Fin 100000) k))
      + V c main_v42 (ix2 (⟨win1_8.index t (0 : Fin 2) * 5000 + p.val, hr⟩ : Fin 100000) k)) (V c main_v25) (V c main_v31) q
  -- the rows under the four streamed blocks
  have hx : ∀ k : Fin 64, iblk1 V c 0 t (ix2 p k)
      = V c main_arg0 (ix2 (⟨win1_8.index t (0 : Fin 2) * 5000 + p.val, hr⟩ : Fin 100000) k) := fun k => by
    show V c main_arg0 (((cfg1.win 0).blk t).view.emb (ix2 p k)) = _
    refine congrArg _ (funext fun a => Fin.ext ?_)
    match a with
    | ⟨0, _⟩ => show win1_0.index t (0 : Fin 2) * 5000 + 1 * p.val = win1_8.index t (0 : Fin 2) * 5000 + p.val; omega
    | ⟨1, _⟩ => show win1_0.index t (1 : Fin 2) * 64 + 1 * k.val = k.val; omega
  have hm1 : ∀ k : Fin 64, iblk1 V c 1 t (ix2 p k)
      = V c main_v36 (ix2 (⟨win1_8.index t (0 : Fin 2) * 5000 + p.val, hr⟩ : Fin 100000) k) := fun k => by
    show V c main_v36 (((cfg1.win 1).blk t).view.emb (ix2 p k)) = _
    refine congrArg _ (funext fun a => Fin.ext ?_)
    match a with
    | ⟨0, _⟩ => show win1_1.index t (0 : Fin 2) * 5000 + 1 * p.val = win1_8.index t (0 : Fin 2) * 5000 + p.val; omega
    | ⟨1, _⟩ => show win1_1.index t (1 : Fin 2) * 64 + 1 * k.val = k.val; omega
  have hm2 : ∀ k : Fin 64, iblk1 V c 2 t (ix2 p k)
      = V c main_v39 (ix2 (⟨win1_8.index t (0 : Fin 2) * 5000 + p.val, hr⟩ : Fin 100000) k) := fun k => by
    show V c main_v39 (((cfg1.win 2).blk t).view.emb (ix2 p k)) = _
    refine congrArg _ (funext fun a => Fin.ext ?_)
    match a with
    | ⟨0, _⟩ => show win1_2.index t (0 : Fin 2) * 5000 + 1 * p.val = win1_8.index t (0 : Fin 2) * 5000 + p.val; omega
    | ⟨1, _⟩ => show win1_2.index t (1 : Fin 2) * 64 + 1 * k.val = k.val; omega
  have hm3 : ∀ k : Fin 64, iblk1 V c 3 t (ix2 p k)
      = V c main_v42 (ix2 (⟨win1_8.index t (0 : Fin 2) * 5000 + p.val, hr⟩ : Fin 100000) k) := fun k => by
    show V c main_v42 (((cfg1.win 3).blk t).view.emb (ix2 p k)) = _
    refine congrArg _ (funext fun a => Fin.ext ?_)
    match a with
    | ⟨0, _⟩ => show win1_3.index t (0 : Fin 2) * 5000 + 1 * p.val = win1_8.index t (0 : Fin 2) * 5000 + p.val; omega
    | ⟨1, _⟩ => show win1_3.index t (1 : Fin 2) * 64 + 1 * k.val = k.val; omega
  -- the weights and the biases are read whole
  have h4 : (iblk1 V c 4 t : Wt.Idx → EReal) = V c main_v24 := funext fun y => by
    show V c main_v24 (((cfg1.win 4).blk t).view.emb y) = V c main_v24 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have h5 : (iblk1 V c 5 t : Rw.Idx → EReal) = V c main_v30 := funext fun y => by
    show V c main_v30 (((cfg1.win 5).blk t).view.emb y) = V c main_v30 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega
  have h6 : (iblk1 V c 6 t : Wt.Idx → EReal) = V c main_v25 := funext fun y => by
    show V c main_v25 (((cfg1.win 6).blk t).view.emb y) = V c main_v25 y
    refine congrArg _ (funext fun a => Fin.ext ?_)
    match a with
    | ⟨0, _⟩ => show win1_6.index t (0 : Fin 2) * 64 + 1 * (y 0).val = (y 0).val; omega
    | ⟨1, _⟩ => show win1_6.index t (1 : Fin 2) * 64 + 1 * (y 1).val = (y 1).val; omega
  have h7 : (iblk1 V c 7 t : Rw.Idx → EReal) = V c main_v31 := funext fun y => by
    show V c main_v31 (((cfg1.win 7).blk t).view.emb y) = V c main_v31 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 64 + 1 * (y 1).val = (y 1).val; omega
  rw [h4, h5, h6, h7]
  refine congrArg (fun f => linAt f (V c main_v25) (V c main_v31) q) (funext fun k => ?_)
  rw [hm1 k, hm2 k, hm3 k]
  refine congrArg (fun f => ((max (linAt f (V c main_v24) (V c main_v30) k) z0 + _) + _) + _) (funext fun k' => hx k')

/-- An index of the array is in point t's block iff each coordinate is in the block's range on its axis. -/
theorem mem_blk (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v43).slice (win1_8.rect t)).set ↔ _
  rw [View.set_slice_whole, Rect.mem_set_unit]
  exact Iff.rfl

/-- The twenty blocks cover the array: row r is in the block of point r / 5000. -/
theorem cover (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ := idx_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- THE ARRAY after the call. -/
theorem final (c : Dev nD) : (dat1 V c).arrAt 8 cfg1.N = outX V c :=
  (dat1 V c).arrAt_eq_of_cover 8 (outX V c) (fun t _ => flushed_eq V c t) cover

end Cert.KernelIdeal.Region1

end
-- ==== Proof.Region2.lean ====
/-
  The context call: out_c = max(c · Wcᵀ + bc, 0), computed 5000 rows at a time over 10 grid points.

  At grid point t the body sees rows 5000·t … 5000·t + 4999 of c, the whole transposed weight matrix and the whole
  one-row bias, and leaves in the output block, at (p, q), the maximum of the layer on row p of its block and the zero
  word. The ten output blocks tile the array, so the array ends holding that function of row r at every (r, q).
-/
import proofs.«165270_j13804024889951_2_alg».proof.Proof.Gen.KernelIdeal.Frame
import proofs.«165270_j13804024889951_2_alg».proof.Proof.Tile

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open GnnTile

variable (V : (c : Dev nD) → (b : Ref sig .tc) → Buf (Elt Ideal) ((c : Thread nD τ).loc b))

theorem hz : (![0, 0] : Fin 2 → Nat) = fun _ => 0 := funext fun a => by fin_cases a <;> rfl

/-- The call's product is the plain one: rows by columns. -/
theorem dot_plain : dot_S5000x64_S64x64_S5000x64_1_0_0_1_n_n = DotDims.plain 5000 64 64 := rfl

/-- The body's arithmetic: the layer on the tile, then the maximum against the zero word. -/
theorem pay_eq (x0 : Vec Ideal S5000x64 .f32) (x1 : Vec Ideal S64x64 .f32) (x2 : Vec Ideal S1x64 .f32) :
    k2_pay1 (F := Ideal) x0 x1 x2
      = maximumf (φ := .f32) (linTile dot_S5000x64_S64x64_S5000x64_1_0_0_1_n_n broadcasts_S1x64_S5000x64 x0 x1 x2)
          (broadcast S5000x64 z0) := by
  unfold k2_pay1 linTile
  simp only [shapeCast_self]
  rfl

/-- What the body leaves in the output block, at (p, q). -/
theorem out_apply (x0 : Vec Ideal S5000x64 .f32) (x1 : Vec Ideal S64x64 .f32) (x2 : Vec Ideal S1x64 .f32)
    (p : Fin 5000) (q : Fin 64) :
    out2_3 (F := Ideal) x0 x1 x2 (ix2 p q) = max (linAt (fun k => x0 (ix2 p k)) x1 x2 q) z0 := by
  unfold out2_3
  rw [View.canon_unit_zero hz]
  simp only [View.ld_unit_zero (S := S5000x64) hz, View.ld_unit_zero (S := S64x64) hz, View.ld_unit_zero (S := S1x64) hz]
  rw [pay_eq]
  exact reluTile_apply _ dot_plain _ z0 x0 x1 x2 p q

/-- The index maps over the grid: the input rows move with the output rows, the weights and the bias stay. -/
theorem idx_facts : ∀ t : Fin cfg2.N,
    win2_0.index t (0 : Fin 2) = win2_3.index t (0 : Fin 2) ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- The array the call leaves. -/
abbrev outC (c : Dev nD) : (Rows 50000).Idx → EReal :=
  reluArr z0 (linArr (n := 50000) (V c main_arg1) (V c main_v26) (V c main_v32))

/-- What point t writes back is block t of that array. -/
theorem flushed_eq (c : Dev nD) (t : Fin cfg2.N) :
    (dat2 V c).flushed 3 t = ((cfg2.win 3).blk t).view.read (Elt Ideal) (outC V c) := by
  show (cfg2.win 3).cut (grid2.coords t) ((dat2 V c).after 3 t) = _
  rw [after2_3]
  obtain ⟨e0, e1, e2, e3, e4, e5, e6, e7⟩ := idx_facts t
  funext j
  obtain ⟨p, q, rfl⟩ : ∃ (p : Fin 5000) (q : Fin 64), j = ix2 p q := ⟨j 0, j 1, eq_ix2 j⟩
  refine (out_apply (iblk2 V c 0 t) (iblk2 V c 1 t) (iblk2 V c 2 t) p q).trans ?_
  have hr : win2_3.index t (0 : Fin 2) * 5000 + p.val < 50000 := by have := p.isLt; omega
  -- the array index under (p, q) of block t
  have hi : ((cfg2.win 3).blk t).view.emb (ix2 p q) = ix2 (⟨win2_3.index t (0 : Fin 2) * 5000 + p.val, hr⟩ : Fin 50000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 64 + 1 * q.val = q.val; omega
  show _ = outC V c (((cfg2.win 3).blk t).view.emb (ix2 p q))
  rw [hi]
  show _ = max (linAt (fun k => V c main_arg1 (ix2 (⟨win2_3.index t (0 : Fin 2) * 5000 + p.val, hr⟩ : Fin 50000) k)) (V c main_v26) (V c main_v32) q) z0
  -- the rows of c under the input block
  have h0 : (fun k : Fin 64 => iblk2 V c 0 t (ix2 p k))
      = fun k => V c main_arg1 (ix2 (⟨win2_3.index t (0 : Fin 2) * 5000 + p.val, hr⟩ : Fin 50000) k) := funext fun k => by
    show V c main_arg1 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + p.val; omega
    | ⟨1, _⟩ => show win2_0.index t (1 : Fin 2) * 64 + 1 * k.val = k.val; omega
  -- the weights and the bias are read whole
  have h1 : (iblk2 V c 1 t : Wt.Idx → EReal) = V c main_v26 := funext fun y => by
    show V c main_v26 (((cfg2.win 1).blk t).view.emb y) = V c main_v26 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  have h2 : (iblk2 V c 2 t : Rw.Idx → EReal) = V c main_v32 := funext fun y => by
    show V c main_v32 (((cfg2.win 2).blk t).view.emb y) = V c main_v32 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  rw [h0, h1, h2]

/-- An index of the array is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v44).slice (win2_3.rect t)).set ↔ _
  rw [View.set_slice_whole, Rect.mem_set_unit]
  exact Iff.rfl

/-- The ten blocks cover the array: row r is in the block of point r / 5000. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE ARRAY after the call: the rectified layer on every row of c as the call finds it. -/
theorem final (c : Dev nD) : (dat2 V c).arrAt 3 cfg2.N = outC V c :=
  (dat2 V c).arrAt_eq_of_cover 3 (outC V c) (fun t _ => flushed_eq V c t) cover

end Cert.KernelIdeal.Region2

end
-- ==== Proof.KFold.lean ====
/-
  What the idealized kernel's two result buffers hold when the program ends, as functions of the launch arrays.

  The buffer contents at the five segment boundaries are a fold from the launch memory. Walking it forwards: the host
  operations before the first call leave the three gathered arrays, the six transposed weight matrices and the six
  biases reshaped to one row; the edge-message call leaves the three message arrays (the rectified layer on the
  gathered rows); the scatter-additions leave the three scattered arrays; the combine-and-project call leaves the node
  result and the context call the context result. No segment writes a buffer an earlier one wrote for a later one to
  read, so each buffer is read back where it was last written. A layer whose tile holds the transposed weights and the
  one-row bias is the layer with the weights as given and the bias as a vector.
-/
import proofs.«165270_j13804024889951_2_alg».proof.Proof.Region0
import proofs.«165270_j13804024889951_2_alg».proof.Proof.Region1
import proofs.«165270_j13804024889951_2_alg».proof.Proof.Region2

set_option maxRecDepth 16384

noncomputable section

open scoped BigOperators

namespace Cert.KernelIdeal.KFold

open Cert.KernelIdeal Cert.KernelIdeal.Gen
open Idealize.ShloMosaic Idealize.ShloMosaic.TcCoe Idealize.ShloMosaic.ValueIdx Idealize.SL.Sem Idealize.ShloMosaic.StableHlo
open GnnTile

/-- Rows of x gathered along the indices e, a negative index first wrapped by the number of rows. -/
def gathX (x : (⟨S100000x64, .f32⟩ : BufTy).Contents (Elt Ideal)) (e : (⟨S1000000, .i32⟩ : BufTy).Contents (Elt Ideal)) : (⟨S1000000x64, .f32⟩ : BufTy).Contents (Elt Ideal) :=
  Host.gather gather_S100000x64_S1000000x1_S1000000x64_1_0_n_n_0_1_164 x
    (broadcastInDim S1000000x1 ![0] bcast_S1000000_S1000000x1_0
      (select (cmpi .slt e (broadcastInDim S1000000 ![] bcast_S_S1000000 (constantI S_ 32 0#32)))
        (addi e (broadcastInDim S1000000 ![] bcast_S_S1000000 (constantI S_ 32 100000#32))) e))

/-- Rows of c gathered along the indices e, a negative index first wrapped by the number of rows. -/
def gathC (x : (⟨S50000x64, .f32⟩ : BufTy).Contents (Elt Ideal)) (e : (⟨S1000000, .i32⟩ : BufTy).Contents (Elt Ideal)) : (⟨S1000000x64, .f32⟩ : BufTy).Contents (Elt Ideal) :=
  Host.gather gather_S50000x64_S1000000x1_S1000000x64_1_0_n_n_0_1_164 x
    (broadcastInDim S1000000x1 ![0] bcast_S1000000_S1000000x1_0
      (select (cmpi .slt e (broadcastInDim S1000000 ![] bcast_S_S1000000 (constantI S_ 32 0#32)))
        (addi e (broadcastInDim S1000000 ![] bcast_S_S1000000 (constantI S_ 32 50000#32))) e))

/-- A message array scatter-added into zeros along the destination indices e. -/
def scatK (e : (⟨S1000000, .i32⟩ : BufTy).Contents (Elt Ideal)) (u : (⟨S1000000x64, .f32⟩ : BufTy).Contents (Elt Ideal)) : (⟨S100000x64, .f32⟩ : BufTy).Contents (Elt Ideal) :=
  Host.scatterAdd (F := Ideal) (φ := .f32) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 e) u

/-- A weight matrix transposed. -/
def tr (W : (⟨S64x64, .f32⟩ : BufTy).Contents (Elt Ideal)) : (⟨S64x64, .f32⟩ : BufTy).Contents (Elt Ideal) := transpose S64x64 [1, 0] W transposes_S64x64_S64x64_1_0

/-- A bias vector reshaped to one row. -/
def rs (b : (⟨S64, .f32⟩ : BufTy).Contents (Elt Ideal)) : (⟨S1x64, .f32⟩ : BufTy).Contents (Elt Ideal) := shapeCast S1x64 b shapeCasts_S64_S1x64

theorem tr_apply (W : (⟨S64x64, .f32⟩ : BufTy).Contents (Elt Ideal)) (k q : Fin 64) : tr W (ix2 k q) = W (ix2 q k) := by
  unfold tr
  exact transpose_apply [1, 0] W transposes_S64x64_S64x64_1_0 (ix2 k q) (ix2 q k) (fun b => match b with
    | ⟨0, _⟩ => rfl
    | ⟨1, _⟩ => rfl)

theorem rs_apply (b : (⟨S64, .f32⟩ : BufTy).Contents (Elt Ideal)) (q : Fin 64) : rs b (ix2 (0 : Fin 1) q) = b (ix1 q) := by
  unfold rs
  refine shapeCast_apply b shapeCasts_S64_S1x64 (ix2 (0 : Fin 1) q) (ix1 q) ?_
  rw [Shape.rowMajor_val_one, Shape.rowMajor_val_two]
  show q.val = (0 : Fin 1).val * 64 + q.val
  simp

/-- The layer on a tile holding the transposed weights and the one-row bias is the layer with the weights as given. -/
theorem lin_tr {n : ℕ} (X : (Rows n).Idx → EReal) (W : (⟨S64x64, .f32⟩ : BufTy).Contents (Elt Ideal)) (b : (⟨S64, .f32⟩ : BufTy).Contents (Elt Ideal)) :
    linArr X (tr W) (rs b) = linArrT X W b :=
  linArr_transposed X W b (tr W) (rs b) (tr_apply W) (rs_apply b)

variable (m : (ℓ : Loc nD τ sig) → Buf (Elt Ideal) ℓ) (ρ : Dev nD → PrngReg) (c : Dev nD)

/-! ## Before the first call: the gathered rows, the transposed weights, the one-row biases -/

theorem W1_main_v6 : W1 m ρ c (Proc.devRef .tc main_v6) = gathX (m ((c : Thread nD τ).loc main_arg0)) (m ((c : Thread nD τ).loc main_arg2)) := by
  show StableHlo.after hostOps0 (W0 m ρ c) (Proc.devRef .tc main_v6) = _
  after_results_simp
  all_goals rfl
theorem W1_main_v13 : W1 m ρ c (Proc.devRef .tc main_v13) = gathX (m ((c : Thread nD τ).loc main_arg0)) (m ((c : Thread nD τ).loc main_arg5)) := by
  show StableHlo.after hostOps0 (W0 m ρ c) (Proc.devRef .tc main_v13) = _
  after_results_simp
  all_goals rfl
theorem W1_main_v20 : W1 m ρ c (Proc.devRef .tc main_v20) = gathC (m ((c : Thread nD τ).loc main_arg1)) (m ((c : Thread nD τ).loc main_arg6)) := by
  show StableHlo.after hostOps0 (W0 m ρ c) (Proc.devRef .tc main_v20) = _
  after_results_simp
  all_goals rfl
theorem W1_main_v21 : W1 m ρ c (Proc.devRef .tc main_v21) = tr (m ((c : Thread nD τ).loc main_arg12)) := by
  show StableHlo.after hostOps0 (W0 m ρ c) (Proc.devRef .tc main_v21) = _
  after_results_simp
  all_goals rfl
theorem W1_main_v22 : W1 m ρ c (Proc.devRef .tc main_v22) = tr (m ((c : Thread nD τ).loc main_arg14)) := by
  show StableHlo.after hostOps0 (W0 m ρ c) (Proc.devRef .tc main_v22) = _
  after_results_simp
  all_goals rfl
theorem W1_main_v23 : W1 m ρ c (Proc.devRef .tc main_v23) = tr (m ((c : Thread nD τ).loc main_arg16)) := by
  show StableHlo.after hostOps0 (W0 m ρ c) (Proc.devRef .tc main_v23) = _
  after_results_simp
  all_goals rfl
theorem W1_main_v24 : W1 m ρ c (Proc.devRef .tc main_v24) = tr (m ((c : Thread nD τ).loc main_arg8)) := by
  show StableHlo.after hostOps0 (W0 m ρ c) (Proc.devRef .tc main_v24) = _
  after_results_simp
  all_goals rfl
theorem W1_main_v25 : W1 m ρ c (Proc.devRef .tc main_v25) = tr (m ((c : Thread nD τ).loc main_arg18)) := by
  show StableHlo.after hostOps0 (W0 m ρ c) (Proc.devRef .tc main_v25) = _
  after_results_simp
  all_goals rfl
theorem W1_main_v26 : W1 m ρ c (Proc.devRef .tc main_v26) = tr (m ((c : Thread nD τ).loc main_arg10)) := by
  show StableHlo.after hostOps0 (W0 m ρ c) (Proc.devRef .tc main_v26) = _
  after_results_simp
  all_goals rfl
theorem W1_main_v27 : W1 m ρ c (Proc.devRef .tc main_v27) = rs (m ((c : Thread nD τ).loc main_arg13)) := by
  show StableHlo.after hostOps0 (W0 m ρ c) (Proc.devRef .tc main_v27) = _
  after_results_simp
  all_goals rfl
theorem W1_main_v28 : W1 m ρ c (Proc.devRef .tc main_v28) = rs (m ((c : Thread nD τ).loc main_arg15)) := by
  show StableHlo.after hostOps0 (W0 m ρ c) (Proc.devRef .tc main_v28) = _
  after_results_simp
  all_goals rfl
theorem W1_main_v29 : W1 m ρ c (Proc.devRef .tc main_v29) = rs (m ((c : Thread nD τ).loc main_arg17)) := by
  show StableHlo.after hostOps0 (W0 m ρ c) (Proc.devRef .tc main_v29) = _
  after_results_simp
  all_goals rfl
theorem W1_main_v30 : W1 m ρ c (Proc.devRef .tc main_v30) = rs (m ((c : Thread nD τ).loc main_arg9)) := by
  show StableHlo.after hostOps0 (W0 m ρ c) (Proc.devRef .tc main_v30) = _
  after_results_simp
  all_goals rfl
theorem W1_main_v31 : W1 m ρ c (Proc.devRef .tc main_v31) = rs (m ((c : Thread nD τ).loc main_arg19)) := by
  show StableHlo.after hostOps0 (W0 m ρ c) (Proc.devRef .tc main_v31) = _
  after_results_simp
  all_goals rfl
theorem W1_main_v32 : W1 m ρ c (Proc.devRef .tc main_v32) = rs (m ((c : Thread nD τ).loc main_arg11)) := by
  show StableHlo.after hostOps0 (W0 m ρ c) (Proc.devRef .tc main_v32) = _
  after_results_simp
  all_goals rfl
theorem W1_main_arg0 : W1 m ρ c (Proc.devRef .tc main_arg0) = (m ((c : Thread nD τ).loc main_arg0)) := by
  show StableHlo.after hostOps0 (W0 m ρ c) (Proc.devRef .tc main_arg0) = _
  after_results_simp
  all_goals rfl
theorem W1_main_arg1 : W1 m ρ c (Proc.devRef .tc main_arg1) = (m ((c : Thread nD τ).loc main_arg1)) := by
  show StableHlo.after hostOps0 (W0 m ρ c) (Proc.devRef .tc main_arg1) = _
  after_results_simp
  all_goals rfl
theorem W1_main_arg3 : W1 m ρ c (Proc.devRef .tc main_arg3) = (m ((c : Thread nD τ).loc main_arg3)) := by
  show StableHlo.after hostOps0 (W0 m ρ c) (Proc.devRef .tc main_arg3) = _
  after_results_simp
  all_goals rfl
theorem W1_main_arg4 : W1 m ρ c (Proc.devRef .tc main_arg4) = (m ((c : Thread nD τ).loc main_arg4)) := by
  show StableHlo.after hostOps0 (W0 m ρ c) (Proc.devRef .tc main_arg4) = _
  after_results_simp
  all_goals rfl
theorem W1_main_arg7 : W1 m ρ c (Proc.devRef .tc main_arg7) = (m ((c : Thread nD τ).loc main_arg7)) := by
  show StableHlo.after hostOps0 (W0 m ρ c) (Proc.devRef .tc main_arg7) = _
  after_results_simp
  all_goals rfl

/-! ## After the edge-message call: its three message arrays; everything else as it was -/

theorem W2_main_v33_0 : W2 m ρ c (Proc.devRef .tc main_v33_0) = reluArr z0 (linArr (n := 1000000) (gathX (m ((c : Thread nD τ).loc main_arg0)) (m ((c : Thread nD τ).loc main_arg2))) (tr (m ((c : Thread nD τ).loc main_arg12))) (rs (m ((c : Thread nD τ).loc main_arg13)))) :=
  (W2_arr m ρ c 9).trans ((Region0.final_a (V1 m ρ) c).trans (by
    show reluArr z0 (linArr (n := 1000000) (W1 m ρ c (Proc.devRef .tc main_v6)) (W1 m ρ c (Proc.devRef .tc main_v21)) (W1 m ρ c (Proc.devRef .tc main_v27))) = _
    rw [W1_main_v6 m ρ c, W1_main_v21 m ρ c, W1_main_v27 m ρ c]))
theorem W2_main_v33_1 : W2 m ρ c (Proc.devRef .tc main_v33_1) = reluArr z0 (linArr (n := 1000000) (gathX (m ((c : Thread nD τ).loc main_arg0)) (m ((c : Thread nD τ).loc main_arg5))) (tr (m ((c : Thread nD τ).loc main_arg14))) (rs (m ((c : Thread nD τ).loc main_arg15)))) :=
  (W2_arr m ρ c 10).trans ((Region0.final_b (V1 m ρ) c).trans (by
    show reluArr z0 (linArr (n := 1000000) (W1 m ρ c (Proc.devRef .tc main_v13)) (W1 m ρ c (Proc.devRef .tc main_v22)) (W1 m ρ c (Proc.devRef .tc main_v28))) = _
    rw [W1_main_v13 m ρ c, W1_main_v22 m ρ c, W1_main_v28 m ρ c]))
theorem W2_main_v33_2 : W2 m ρ c (Proc.devRef .tc main_v33_2) = reluArr z0 (linArr (n := 1000000) (gathC (m ((c : Thread nD τ).loc main_arg1)) (m ((c : Thread nD τ).loc main_arg6))) (tr (m ((c : Thread nD τ).loc main_arg16))) (rs (m ((c : Thread nD τ).loc main_arg17)))) :=
  (W2_arr m ρ c 11).trans ((Region0.final_c (V1 m ρ) c).trans (by
    show reluArr z0 (linArr (n := 1000000) (W1 m ρ c (Proc.devRef .tc main_v20)) (W1 m ρ c (Proc.devRef .tc main_v23)) (W1 m ρ c (Proc.devRef .tc main_v29))) = _
    rw [W1_main_v20 m ρ c, W1_main_v23 m ρ c, W1_main_v29 m ρ c]))
theorem W2_main_arg0 : W2 m ρ c (Proc.devRef .tc main_arg0) = (m ((c : Thread nD τ).loc main_arg0)) :=
  (W2_of_ne m ρ c main_arg0 (by decide)).trans (W1_main_arg0 m ρ c)
theorem W2_main_arg1 : W2 m ρ c (Proc.devRef .tc main_arg1) = (m ((c : Thread nD τ).loc main_arg1)) :=
  (W2_of_ne m ρ c main_arg1 (by decide)).trans (W1_main_arg1 m ρ c)
theorem W2_main_arg3 : W2 m ρ c (Proc.devRef .tc main_arg3) = (m ((c : Thread nD τ).loc main_arg3)) :=
  (W2_of_ne m ρ c main_arg3 (by decide)).trans (W1_main_arg3 m ρ c)
theorem W2_main_arg4 : W2 m ρ c (Proc.devRef .tc main_arg4) = (m ((c : Thread nD τ).loc main_arg4)) :=
  (W2_of_ne m ρ c main_arg4 (by decide)).trans (W1_main_arg4 m ρ c)
theorem W2_main_arg7 : W2 m ρ c (Proc.devRef .tc main_arg7) = (m ((c : Thread nD τ).loc main_arg7)) :=
  (W2_of_ne m ρ c main_arg7 (by decide)).trans (W1_main_arg7 m ρ c)
theorem W2_main_v24 : W2 m ρ c (Proc.devRef .tc main_v24) = tr (m ((c : Thread nD τ).loc main_arg8)) :=
  (W2_of_ne m ρ c main_v24 (by decide)).trans (W1_main_v24 m ρ c)
theorem W2_main_v30 : W2 m ρ c (Proc.devRef .tc main_v30) = rs (m ((c : Thread nD τ).loc main_arg9)) :=
  (W2_of_ne m ρ c main_v30 (by decide)).trans (W1_main_v30 m ρ c)
theorem W2_main_v25 : W2 m ρ c (Proc.devRef .tc main_v25) = tr (m ((c : Thread nD τ).loc main_arg18)) :=
  (W2_of_ne m ρ c main_v25 (by decide)).trans (W1_main_v25 m ρ c)
theorem W2_main_v31 : W2 m ρ c (Proc.devRef .tc main_v31) = rs (m ((c : Thread nD τ).loc main_arg19)) :=
  (W2_of_ne m ρ c main_v31 (by decide)).trans (W1_main_v31 m ρ c)
theorem W2_main_v26 : W2 m ρ c (Proc.devRef .tc main_v26) = tr (m ((c : Thread nD τ).loc main_arg10)) :=
  (W2_of_ne m ρ c main_v26 (by decide)).trans (W1_main_v26 m ρ c)
theorem W2_main_v32 : W2 m ρ c (Proc.devRef .tc main_v32) = rs (m ((c : Thread nD τ).loc main_arg11)) :=
  (W2_of_ne m ρ c main_v32 (by decide)).trans (W1_main_v32 m ρ c)

/-! ## After the scatter-additions: the three scattered arrays; everything else as it was -/

theorem W3_main_v36 : W3 m ρ c (Proc.devRef .tc main_v36) = scatK (m ((c : Thread nD τ).loc main_arg3)) (reluArr z0 (linArr (n := 1000000) (gathX (m ((c : Thread nD τ).loc main_arg0)) (m ((c : Thread nD τ).loc main_arg2))) (tr (m ((c : Thread nD τ).loc main_arg12))) (rs (m ((c : Thread nD τ).loc main_arg13))))) := by
  have h : W3 m ρ c (Proc.devRef .tc main_v36) = scatK (W2 m ρ c (Proc.devRef .tc main_arg3)) (W2 m ρ c (Proc.devRef .tc main_v33_0)) := by
    show StableHlo.after hostOps1 (W2 m ρ c) (Proc.devRef .tc main_v36) = _
    after_results_simp
    all_goals rfl
  rw [h, W2_main_arg3 m ρ c, W2_main_v33_0 m ρ c]
theorem W3_main_v39 : W3 m ρ c (Proc.devRef .tc main_v39) = scatK (m ((c : Thread nD τ).loc main_arg4)) (reluArr z0 (linArr (n := 1000000) (gathX (m ((c : Thread nD τ).loc main_arg0)) (m ((c : Thread nD τ).loc main_arg5))) (tr (m ((c : Thread nD τ).loc main_arg14))) (rs (m ((c : Thread nD τ).loc main_arg15))))) := by
  have h : W3 m ρ c (Proc.devRef .tc main_v39) = scatK (W2 m ρ c (Proc.devRef .tc main_arg4)) (W2 m ρ c (Proc.devRef .tc main_v33_1)) := by
    show StableHlo.after hostOps1 (W2 m ρ c) (Proc.devRef .tc main_v39) = _
    after_results_simp
    all_goals rfl
  rw [h, W2_main_arg4 m ρ c, W2_main_v33_1 m ρ c]
theorem W3_main_v42 : W3 m ρ c (Proc.devRef .tc main_v42) = scatK (m ((c : Thread nD τ).loc main_arg7)) (reluArr z0 (linArr (n := 1000000) (gathC (m ((c : Thread nD τ).loc main_arg1)) (m ((c : Thread nD τ).loc main_arg6))) (tr (m ((c : Thread nD τ).loc main_arg16))) (rs (m ((c : Thread nD τ).loc main_arg17))))) := by
  have h : W3 m ρ c (Proc.devRef .tc main_v42) = scatK (W2 m ρ c (Proc.devRef .tc main_arg7)) (W2 m ρ c (Proc.devRef .tc main_v33_2)) := by
    show StableHlo.after hostOps1 (W2 m ρ c) (Proc.devRef .tc main_v42) = _
    after_results_simp
    all_goals rfl
  rw [h, W2_main_arg7 m ρ c, W2_main_v33_2 m ρ c]
theorem W3_main_arg0 : W3 m ρ c (Proc.devRef .tc main_arg0) = (m ((c : Thread nD τ).loc main_arg0)) := by
  have h : W3 m ρ c (Proc.devRef .tc main_arg0) = W2 m ρ c (Proc.devRef .tc main_arg0) := by
    show StableHlo.after hostOps1 (W2 m ρ c) (Proc.devRef .tc main_arg0) = _
    after_results_simp
    all_goals rfl
  rw [h, W2_main_arg0 m ρ c]
theorem W3_main_arg1 : W3 m ρ c (Proc.devRef .tc main_arg1) = (m ((c : Thread nD τ).loc main_arg1)) := by
  have h : W3 m ρ c (Proc.devRef .tc main_arg1) = W2 m ρ c (Proc.devRef .tc main_arg1) := by
    show StableHlo.after hostOps1 (W2 m ρ c) (Proc.devRef .tc main_arg1) = _
    after_results_simp
    all_goals rfl
  rw [h, W2_main_arg1 m ρ c]
theorem W3_main_v24 : W3 m ρ c (Proc.devRef .tc main_v24) = tr (m ((c : Thread nD τ).loc main_arg8)) := by
  have h : W3 m ρ c (Proc.devRef .tc main_v24) = W2 m ρ c (Proc.devRef .tc main_v24) := by
    show StableHlo.after hostOps1 (W2 m ρ c) (Proc.devRef .tc main_v24) = _
    after_results_simp
    all_goals rfl
  rw [h, W2_main_v24 m ρ c]
theorem W3_main_v30 : W3 m ρ c (Proc.devRef .tc main_v30) = rs (m ((c : Thread nD τ).loc main_arg9)) := by
  have h : W3 m ρ c (Proc.devRef .tc main_v30) = W2 m ρ c (Proc.devRef .tc main_v30) := by
    show StableHlo.after hostOps1 (W2 m ρ c) (Proc.devRef .tc main_v30) = _
    after_results_simp
    all_goals rfl
  rw [h, W2_main_v30 m ρ c]
theorem W3_main_v25 : W3 m ρ c (Proc.devRef .tc main_v25) = tr (m ((c : Thread nD τ).loc main_arg18)) := by
  have h : W3 m ρ c (Proc.devRef .tc main_v25) = W2 m ρ c (Proc.devRef .tc main_v25) := by
    show StableHlo.after hostOps1 (W2 m ρ c) (Proc.devRef .tc main_v25) = _
    after_results_simp
    all_goals rfl
  rw [h, W2_main_v25 m ρ c]
theorem W3_main_v31 : W3 m ρ c (Proc.devRef .tc main_v31) = rs (m ((c : Thread nD τ).loc main_arg19)) := by
  have h : W3 m ρ c (Proc.devRef .tc main_v31) = W2 m ρ c (Proc.devRef .tc main_v31) := by
    show StableHlo.after hostOps1 (W2 m ρ c) (Proc.devRef .tc main_v31) = _
    after_results_simp
    all_goals rfl
  rw [h, W2_main_v31 m ρ c]
theorem W3_main_v26 : W3 m ρ c (Proc.devRef .tc main_v26) = tr (m ((c : Thread nD τ).loc main_arg10)) := by
  have h : W3 m ρ c (Proc.devRef .tc main_v26) = W2 m ρ c (Proc.devRef .tc main_v26) := by
    show StableHlo.after hostOps1 (W2 m ρ c) (Proc.devRef .tc main_v26) = _
    after_results_simp
    all_goals rfl
  rw [h, W2_main_v26 m ρ c]
theorem W3_main_v32 : W3 m ρ c (Proc.devRef .tc main_v32) = rs (m ((c : Thread nD τ).loc main_arg11)) := by
  have h : W3 m ρ c (Proc.devRef .tc main_v32) = W2 m ρ c (Proc.devRef .tc main_v32) := by
    show StableHlo.after hostOps1 (W2 m ρ c) (Proc.devRef .tc main_v32) = _
    after_results_simp
    all_goals rfl
  rw [h, W2_main_v32 m ρ c]

/-! ## After the combine-and-project call, and after the context call -/

theorem W4_main_v43 : W4 m ρ c (Proc.devRef .tc main_v43) = linArr (n := 100000) (fun j => ((reluArr z0 (linArr (n := 100000) (m ((c : Thread nD τ).loc main_arg0)) (tr (m ((c : Thread nD τ).loc main_arg8))) (rs (m ((c : Thread nD τ).loc main_arg9)))) j + (scatK (m ((c : Thread nD τ).loc main_arg3)) (reluArr z0 (linArr (n := 1000000) (gathX (m ((c : Thread nD τ).loc main_arg0)) (m ((c : Thread nD τ).loc main_arg2))) (tr (m ((c : Thread nD τ).loc main_arg12))) (rs (m ((c : Thread nD τ).loc main_arg13)))))) j) + (scatK (m ((c : Thread nD τ).loc main_arg4)) (reluArr z0 (linArr (n := 1000000) (gathX (m ((c : Thread nD τ).loc main_arg0)) (m ((c : Thread nD τ).loc main_arg5))) (tr (m ((c : Thread nD τ).loc main_arg14))) (rs (m ((c : Thread nD τ).loc main_arg15)))))) j) + (scatK (m ((c : Thread nD τ).loc main_arg7)) (reluArr z0 (linArr (n := 1000000) (gathC (m ((c : Thread nD τ).loc main_arg1)) (m ((c : Thread nD τ).loc main_arg6))) (tr (m ((c : Thread nD τ).loc main_arg16))) (rs (m ((c : Thread nD τ).loc main_arg17)))))) j) (tr (m ((c : Thread nD τ).loc main_arg18))) (rs (m ((c : Thread nD τ).loc main_arg19))) :=
  (W4_arr m ρ c 8).trans ((Region1.final (V3 m ρ) c).trans (by
    show linArr (n := 100000) (fun j => ((reluArr z0 (linArr (n := 100000) (W3 m ρ c (Proc.devRef .tc main_arg0)) (W3 m ρ c (Proc.devRef .tc main_v24)) (W3 m ρ c (Proc.devRef .tc main_v30))) j
        + W3 m ρ c (Proc.devRef .tc main_v36) j) + W3 m ρ c (Proc.devRef .tc main_v39) j) + W3 m ρ c (Proc.devRef .tc main_v42) j)
      (W3 m ρ c (Proc.devRef .tc main_v25)) (W3 m ρ c (Proc.devRef .tc main_v31)) = _
    rw [W3_main_arg0 m ρ c, W3_main_v24 m ρ c, W3_main_v30 m ρ c, W3_main_v36 m ρ c, W3_main_v39 m ρ c, W3_main_v42 m ρ c,
      W3_main_v25 m ρ c, W3_main_v31 m ρ c]))
theorem W4_main_arg1 : W4 m ρ c (Proc.devRef .tc main_arg1) = (m ((c : Thread nD τ).loc main_arg1)) :=
  (W4_of_ne m ρ c main_arg1 (by decide)).trans (W3_main_arg1 m ρ c)
theorem W4_main_v26 : W4 m ρ c (Proc.devRef .tc main_v26) = tr (m ((c : Thread nD τ).loc main_arg10)) :=
  (W4_of_ne m ρ c main_v26 (by decide)).trans (W3_main_v26 m ρ c)
theorem W4_main_v32 : W4 m ρ c (Proc.devRef .tc main_v32) = rs (m ((c : Thread nD τ).loc main_arg11)) :=
  (W4_of_ne m ρ c main_v32 (by decide)).trans (W3_main_v32 m ρ c)
theorem W5_main_v44 : W5 m ρ c (Proc.devRef .tc main_v44) = reluArr z0 (linArr (n := 50000) (m ((c : Thread nD τ).loc main_arg1)) (tr (m ((c : Thread nD τ).loc main_arg10))) (rs (m ((c : Thread nD τ).loc main_arg11)))) :=
  (W5_arr m ρ c 3).trans ((Region2.final (V4 m ρ) c).trans (by
    show reluArr z0 (linArr (n := 50000) (W4 m ρ c (Proc.devRef .tc main_arg1)) (W4 m ρ c (Proc.devRef .tc main_v26)) (W4 m ρ c (Proc.devRef .tc main_v32))) = _
    rw [W4_main_arg1 m ρ c, W4_main_v26 m ρ c, W4_main_v32 m ρ c]))
theorem W5_main_v43 : W5 m ρ c (Proc.devRef .tc main_v43) = linArr (n := 100000) (fun j => ((reluArr z0 (linArr (n := 100000) (m ((c : Thread nD τ).loc main_arg0)) (tr (m ((c : Thread nD τ).loc main_arg8))) (rs (m ((c : Thread nD τ).loc main_arg9)))) j + (scatK (m ((c : Thread nD τ).loc main_arg3)) (reluArr z0 (linArr (n := 1000000) (gathX (m ((c : Thread nD τ).loc main_arg0)) (m ((c : Thread nD τ).loc main_arg2))) (tr (m ((c : Thread nD τ).loc main_arg12))) (rs (m ((c : Thread nD τ).loc main_arg13)))))) j) + (scatK (m ((c : Thread nD τ).loc main_arg4)) (reluArr z0 (linArr (n := 1000000) (gathX (m ((c : Thread nD τ).loc main_arg0)) (m ((c : Thread nD τ).loc main_arg5))) (tr (m ((c : Thread nD τ).loc main_arg14))) (rs (m ((c : Thread nD τ).loc main_arg15)))))) j) + (scatK (m ((c : Thread nD τ).loc main_arg7)) (reluArr z0 (linArr (n := 1000000) (gathC (m ((c : Thread nD τ).loc main_arg1)) (m ((c : Thread nD τ).loc main_arg6))) (tr (m ((c : Thread nD τ).loc main_arg16))) (rs (m ((c : Thread nD τ).loc main_arg17)))))) j) (tr (m ((c : Thread nD τ).loc main_arg18))) (rs (m ((c : Thread nD τ).loc main_arg19))) :=
  (W5_of_ne m ρ c main_v43 (by decide)).trans (W4_main_v43 m ρ c)

/-! ## The two results -/

/-- The context result: the rectified layer on c with the weights and the bias as given. -/
theorem result_c : W5 m ρ c (Proc.devRef .tc main_v44) = reluArr z0 (linArrT (n := 50000) (m ((c : Thread nD τ).loc main_arg1)) (m ((c : Thread nD τ).loc main_arg10)) (m ((c : Thread nD τ).loc main_arg11))) := by
  rw [W5_main_v44 m ρ c, lin_tr]

/-- The node result: the projection layer on the sum, left to right, of the rectified self layer and the three scattered
    message arrays, every layer with its weights and bias as given. -/
theorem result_x : W5 m ρ c (Proc.devRef .tc main_v43) =
      linArrT (n := 100000) (fun j => ((reluArr z0 (linArrT (n := 100000) (m ((c : Thread nD τ).loc main_arg0)) (m ((c : Thread nD τ).loc main_arg8)) (m ((c : Thread nD τ).loc main_arg9))) j
        + scatK (m ((c : Thread nD τ).loc main_arg3)) (reluArr z0 (linArrT (n := 1000000) (gathX (m ((c : Thread nD τ).loc main_arg0)) (m ((c : Thread nD τ).loc main_arg2))) (m ((c : Thread nD τ).loc main_arg12)) (m ((c : Thread nD τ).loc main_arg13)))) j)
        + scatK (m ((c : Thread nD τ).loc main_arg4)) (reluArr z0 (linArrT (n := 1000000) (gathX (m ((c : Thread nD τ).loc main_arg0)) (m ((c : Thread nD τ).loc main_arg5))) (m ((c : Thread nD τ).loc main_arg14)) (m ((c : Thread nD τ).loc main_arg15)))) j)
        + scatK (m ((c : Thread nD τ).loc main_arg7)) (reluArr z0 (linArrT (n := 1000000) (gathC (m ((c : Thread nD τ).loc main_arg1)) (m ((c : Thread nD τ).loc main_arg6))) (m ((c : Thread nD τ).loc main_arg16)) (m ((c : Thread nD τ).loc main_arg17)))) j) (m ((c : Thread nD τ).loc main_arg18)) (m ((c : Thread nD τ).loc main_arg19)) := by
  rw [W5_main_v43 m ρ c]
  simp only [lin_tr]

end Cert.KernelIdeal.KFold

end
-- ==== Proof.RefStages.lean ====
/-
  The reference program's two results as functions of its arguments, over the extended reals.

  Every message array is the rectified layer on the gathered rows, relu (G · Wᵀ + b) with G the gathered array; each is
  scatter-added into zeros; the node result is the layer with Wp, bp on the sum of the rectified self layer and the
  three scattered arrays, taken left to right; the context result is the rectified layer on c. The gathers and the
  scatter-additions are kept as the host operations they are: nothing here looks inside them.
-/
import proofs.«165270_j13804024889951_2_alg».proof.Proof.Gen.ReferenceIdeal.Read
import proofs.«165270_j13804024889951_2_alg».proof.Proof.Tile

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open GnnTile

/-- A message array scatter-added into zeros along the destination indices e. -/
def scat (e : (⟨S1000000, .i32⟩ : BufTy).Contents (Elt Ideal)) (u : (⟨S1000000x64, .f32⟩ : BufTy).Contents (Elt Ideal)) : (⟨S100000x64, .f32⟩ : BufTy).Contents (Elt Ideal) :=
  Host.scatterAdd (F := Ideal) (φ := .f32) scatter_S100000x64_S1000000x1_S1000000x64_1_0_0_1 (val_main_v19 (F := Ideal)) (val_main_v20 (F := Ideal) e) u

/-- The context result: the rectified layer on c. -/
def outC (x1 : (⟨S50000x64, .f32⟩ : BufTy).Contents (Elt Ideal)) (x10 : (⟨S64x64, .f32⟩ : BufTy).Contents (Elt Ideal)) (x11 : (⟨S64, .f32⟩ : BufTy).Contents (Elt Ideal)) :
    (⟨S50000x64, .f32⟩ : BufTy).Contents (Elt Ideal) :=
  reluArr (n := 50000) z0 (linArrT (n := 50000) x1 x10 x11)

/-- A message array: the rectified layer on gathered rows G. -/
def msg (G : (⟨S1000000x64, .f32⟩ : BufTy).Contents (Elt Ideal)) (W : (⟨S64x64, .f32⟩ : BufTy).Contents (Elt Ideal)) (b : (⟨S64, .f32⟩ : BufTy).Contents (Elt Ideal)) :
    (⟨S1000000x64, .f32⟩ : BufTy).Contents (Elt Ideal) :=
  reluArr (n := 1000000) z0 (linArrT (n := 1000000) G W b)

/-- The node result from the rectified self layer and the three scattered message arrays. -/
def outX (x0 : (⟨S100000x64, .f32⟩ : BufTy).Contents (Elt Ideal)) (x8 : (⟨S64x64, .f32⟩ : BufTy).Contents (Elt Ideal)) (x9 : (⟨S64, .f32⟩ : BufTy).Contents (Elt Ideal))
    (s1 s2 s3 : (⟨S100000x64, .f32⟩ : BufTy).Contents (Elt Ideal)) (x18 : (⟨S64x64, .f32⟩ : BufTy).Contents (Elt Ideal)) (x19 : (⟨S64, .f32⟩ : BufTy).Contents (Elt Ideal)) :
    (⟨S100000x64, .f32⟩ : BufTy).Contents (Elt Ideal) :=
  linArrT (n := 100000) (fun j => ((reluArr (n := 100000) z0 (linArrT (n := 100000) x0 x8 x9) j + s1 j) + s2 j) + s3 j) x18 x19

/-- The self layer: entry (r, q) is the maximum of the layer's entry and the zero word. -/
theorem ref_self (x0 : (⟨S100000x64, .f32⟩ : BufTy).Contents (Elt Ideal)) (x8 : (⟨S64x64, .f32⟩ : BufTy).Contents (Elt Ideal)) (x9 : (⟨S64, .f32⟩ : BufTy).Contents (Elt Ideal)) :
    val_main_v5 (F := Ideal) x0 x8 x9 = reluArr (n := 100000) z0 (linArrT (n := 100000) x0 x8 x9) := by
  funext i
  obtain ⟨r, q, rfl⟩ : ∃ (r : Fin 100000) (q : Fin 64), i = ix2 r q := ⟨i 0, i 1, eq_ix2 i⟩
  rw [val_main_v5_apply, val_main_v4_apply, val_main_v1_apply, val_main_v3_apply, val_main_v2_apply,
    val_main_call0_v0_apply, val_main_call0_cst_apply]
  simp only [val_main_v0_apply]
  have hl : ∀ k : Fin 64, lidx_main_v1 (ix2 r q) k = ix2 r k := fun k => funext fun a => Fin.ext (by
    match a with | ⟨0, _⟩ => rfl | ⟨1, _⟩ => rfl)
  have hr : ∀ k : Fin 64, idx_main_v0 (ridx_main_v1 (ix2 r q) k) = ix2 q k := fun k => funext fun a => Fin.ext (by
    match a with | ⟨0, _⟩ => rfl | ⟨1, _⟩ => rfl)
  have hb : idx_main_v2 (idx_main_v3 (ix2 r q)) = ix1 q := funext fun a => Fin.ext (by
    match a with | ⟨0, _⟩ => rfl)
  simp only [hl, hr, hb]
  rfl

/-- The first message array: entry (r, q) is the rectified layer's entry on gathered row r. -/
theorem ref_msg1 (x0 : (⟨S100000x64, .f32⟩ : BufTy).Contents (Elt Ideal)) (x2 : (⟨S1000000, .i32⟩ : BufTy).Contents (Elt Ideal)) (x12 : (⟨S64x64, .f32⟩ : BufTy).Contents (Elt Ideal)) (x13 : (⟨S64, .f32⟩ : BufTy).Contents (Elt Ideal)) :
    val_main_v18 (F := Ideal) x0 x2 x12 x13 = msg (val_main_v12 (F := Ideal) x0 x2) x12 x13 := by
  funext i
  obtain ⟨r, q, rfl⟩ : ∃ (r : Fin 1000000) (q : Fin 64), i = ix2 r q := ⟨i 0, i 1, eq_ix2 i⟩
  rw [val_main_v18_apply, val_main_v17_apply, val_main_v14_apply, val_main_v16_apply, val_main_v15_apply,
    val_main_call1_v0_apply, val_main_call1_cst_apply]
  simp only [val_main_v13_apply]
  have hl : ∀ k : Fin 64, lidx_main_v14 (ix2 r q) k = ix2 r k := fun k => funext fun a => Fin.ext (by
    match a with | ⟨0, _⟩ => rfl | ⟨1, _⟩ => rfl)
  have hr : ∀ k : Fin 64, idx_main_v13 (ridx_main_v14 (ix2 r q) k) = ix2 q k := fun k => funext fun a => Fin.ext (by
    match a with | ⟨0, _⟩ => rfl | ⟨1, _⟩ => rfl)
  have hb : idx_main_v15 (idx_main_v16 (ix2 r q)) = ix1 q := funext fun a => Fin.ext (by
    match a with | ⟨0, _⟩ => rfl)
  simp only [hl, hr, hb]
  rfl

/-- The second message array, likewise. -/
theorem ref_msg2 (x0 : (⟨S100000x64, .f32⟩ : BufTy).Contents (Elt Ideal)) (x5 : (⟨S1000000, .i32⟩ : BufTy).Contents (Elt Ideal)) (x14 : (⟨S64x64, .f32⟩ : BufTy).Contents (Elt Ideal)) (x15 : (⟨S64, .f32⟩ : BufTy).Contents (Elt Ideal)) :
    val_main_v34 (F := Ideal) x0 x5 x14 x15 = msg (val_main_v28 (F := Ideal) x0 x5) x14 x15 := by
  funext i
  obtain ⟨r, q, rfl⟩ : ∃ (r : Fin 1000000) (q : Fin 64), i = ix2 r q := ⟨i 0, i 1, eq_ix2 i⟩
  rw [val_main_v34_apply, val_main_v33_apply, val_main_v30_apply, val_main_v32_apply, val_main_v31_apply,
    val_main_call2_v0_apply, val_main_call2_cst_apply]
  simp only [val_main_v29_apply]
  have hl : ∀ k : Fin 64, lidx_main_v30 (ix2 r q) k = ix2 r k := fun k => funext fun a => Fin.ext (by
    match a with | ⟨0, _⟩ => rfl | ⟨1, _⟩ => rfl)
  have hr : ∀ k : Fin 64, idx_main_v29 (ridx_main_v30 (ix2 r q) k) = ix2 q k := fun k => funext fun a => Fin.ext (by
    match a with | ⟨0, _⟩ => rfl | ⟨1, _⟩ => rfl)
  have hb : idx_main_v31 (idx_main_v32 (ix2 r q)) = ix1 q := funext fun a => Fin.ext (by
    match a with | ⟨0, _⟩ => rfl)
  simp only [hl, hr, hb]
  rfl

/-- The third message array, over rows gathered from the context array. -/
theorem ref_msg3 (x1 : (⟨S50000x64, .f32⟩ : BufTy).Contents (Elt Ideal)) (x6 : (⟨S1000000, .i32⟩ : BufTy).Contents (Elt Ideal)) (x16 : (⟨S64x64, .f32⟩ : BufTy).Contents (Elt Ideal)) (x17 : (⟨S64, .f32⟩ : BufTy).Contents (Elt Ideal)) :
    val_main_v50 (F := Ideal) x1 x6 x16 x17 = msg (val_main_v44 (F := Ideal) x1 x6) x16 x17 := by
  funext i
  obtain ⟨r, q, rfl⟩ : ∃ (r : Fin 1000000) (q : Fin 64), i = ix2 r q := ⟨i 0, i 1, eq_ix2 i⟩
  rw [val_main_v50_apply, val_main_v49_apply, val_main_v46_apply, val_main_v48_apply, val_main_v47_apply,
    val_main_call3_v0_apply, val_main_call3_cst_apply]
  simp only [val_main_v45_apply]
  have hl : ∀ k : Fin 64, lidx_main_v46 (ix2 r q) k = ix2 r k := fun k => funext fun a => Fin.ext (by
    match a with | ⟨0, _⟩ => rfl | ⟨1, _⟩ => rfl)
  have hr : ∀ k : Fin 64, idx_main_v45 (ridx_main_v46 (ix2 r q) k) = ix2 q k := fun k => funext fun a => Fin.ext (by
    match a with | ⟨0, _⟩ => rfl | ⟨1, _⟩ => rfl)
  have hb : idx_main_v47 (idx_main_v48 (ix2 r q)) = ix1 q := funext fun a => Fin.ext (by
    match a with | ⟨0, _⟩ => rfl)
  simp only [hl, hr, hb]
  rfl

/-- The first scatter-addition is the scatter-addition of the first message array into zeros. -/
theorem ref_scat1 (x0 : (⟨S100000x64, .f32⟩ : BufTy).Contents (Elt Ideal)) (x2 x3 : (⟨S1000000, .i32⟩ : BufTy).Contents (Elt Ideal)) (x12 : (⟨S64x64, .f32⟩ : BufTy).Contents (Elt Ideal)) (x13 : (⟨S64, .f32⟩ : BufTy).Contents (Elt Ideal)) :
    val_main_v21 (F := Ideal) x0 x2 x3 x12 x13 = scat x3 (msg (val_main_v12 (F := Ideal) x0 x2) x12 x13) := by
  rw [← ref_msg1]
  rfl

/-- The second scatter-addition: its zeros and its index column are the same arrays as the first's. -/
theorem ref_scat2 (x0 : (⟨S100000x64, .f32⟩ : BufTy).Contents (Elt Ideal)) (x4 x5 : (⟨S1000000, .i32⟩ : BufTy).Contents (Elt Ideal)) (x14 : (⟨S64x64, .f32⟩ : BufTy).Contents (Elt Ideal)) (x15 : (⟨S64, .f32⟩ : BufTy).Contents (Elt Ideal)) :
    val_main_v37 (F := Ideal) x0 x4 x5 x14 x15 = scat x4 (msg (val_main_v28 (F := Ideal) x0 x5) x14 x15) := by
  rw [← ref_msg2]
  rfl

/-- The third scatter-addition, likewise. -/
theorem ref_scat3 (x1 : (⟨S50000x64, .f32⟩ : BufTy).Contents (Elt Ideal)) (x6 x7 : (⟨S1000000, .i32⟩ : BufTy).Contents (Elt Ideal)) (x16 : (⟨S64x64, .f32⟩ : BufTy).Contents (Elt Ideal)) (x17 : (⟨S64, .f32⟩ : BufTy).Contents (Elt Ideal)) :
    val_main_v53 (F := Ideal) x1 x6 x7 x16 x17 = scat x7 (msg (val_main_v44 (F := Ideal) x1 x6) x16 x17) := by
  rw [← ref_msg3]
  rfl

theorem ref_out_c (x1 : (⟨S50000x64, .f32⟩ : BufTy).Contents (Elt Ideal)) (x10 : (⟨S64x64, .f32⟩ : BufTy).Contents (Elt Ideal)) (x11 : (⟨S64, .f32⟩ : BufTy).Contents (Elt Ideal)) :
    val_main_v67 (F := Ideal) x1 x10 x11 = outC x1 x10 x11 := by
  funext i
  obtain ⟨r, q, rfl⟩ : ∃ (r : Fin 50000) (q : Fin 64), i = ix2 r q := ⟨i 0, i 1, eq_ix2 i⟩
  rw [val_main_v67_apply, val_main_v66_apply, val_main_v63_apply, val_main_v65_apply, val_main_v64_apply,
    val_main_call4_v0_apply, val_main_call4_cst_apply]
  simp only [val_main_v62_apply]
  have hl : ∀ k : Fin 64, lidx_main_v63 (ix2 r q) k = ix2 r k := fun k => funext fun a => Fin.ext (by
    match a with | ⟨0, _⟩ => rfl | ⟨1, _⟩ => rfl)
  have hr : ∀ k : Fin 64, idx_main_v62 (ridx_main_v63 (ix2 r q) k) = ix2 q k := fun k => funext fun a => Fin.ext (by
    match a with | ⟨0, _⟩ => rfl | ⟨1, _⟩ => rfl)
  have hb : idx_main_v64 (idx_main_v65 (ix2 r q)) = ix1 q := funext fun a => Fin.ext (by
    match a with | ⟨0, _⟩ => rfl)
  simp only [hl, hr, hb]
  rfl

theorem ref_out_x (x0 : (⟨S100000x64, .f32⟩ : BufTy).Contents (Elt Ideal)) (x1 : (⟨S50000x64, .f32⟩ : BufTy).Contents (Elt Ideal))
    (x2 x3 x4 x5 x6 x7 : (⟨S1000000, .i32⟩ : BufTy).Contents (Elt Ideal))
    (x8 : (⟨S64x64, .f32⟩ : BufTy).Contents (Elt Ideal)) (x9 : (⟨S64, .f32⟩ : BufTy).Contents (Elt Ideal))
    (x12 : (⟨S64x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal))
    (x18 : (⟨S64x64, .f32⟩ : BufTy).Contents (Elt Ideal)) (x19 : (⟨S64, .f32⟩ : BufTy).Contents (Elt Ideal)) :
    val_main_v61 (F := Ideal) x0 x1 x2 x3 x4 x5 x6 x7 x8 x9 x12 x13 x14 x15 x16 x17 x18 x19
      = outX x0 x8 x9
          (scat x3 (msg (val_main_v12 (F := Ideal) x0 x2) x12 x13))
          (scat x4 (msg (val_main_v28 (F := Ideal) x0 x5) x14 x15))
          (scat x7 (msg (val_main_v44 (F := Ideal) x1 x6) x16 x17))
          x18 x19 := by
  funext i
  obtain ⟨r, q, rfl⟩ : ∃ (r : Fin 100000) (q : Fin 64), i = ix2 r q := ⟨i 0, i 1, eq_ix2 i⟩
  rw [val_main_v61_apply, val_main_v58_apply, val_main_v60_apply, val_main_v59_apply]
  simp only [val_main_v57_apply, val_main_v56_apply, val_main_v55_apply, val_main_v54_apply]
  have hl : ∀ k : Fin 64, lidx_main_v58 (ix2 r q) k = ix2 r k := fun k => funext fun a => Fin.ext (by
    match a with | ⟨0, _⟩ => rfl | ⟨1, _⟩ => rfl)
  have hr : ∀ k : Fin 64, idx_main_v57 (ridx_main_v58 (ix2 r q) k) = ix2 q k := fun k => funext fun a => Fin.ext (by
    match a with | ⟨0, _⟩ => rfl | ⟨1, _⟩ => rfl)
  have hb : idx_main_v59 (idx_main_v60 (ix2 r q)) = ix1 q := funext fun a => Fin.ext (by
    match a with | ⟨0, _⟩ => rfl)
  simp only [hl, hr, hb]
  simp only [ref_self, ref_scat1, ref_scat2, ref_scat3]
  rfl

end Cert.ReferenceIdeal.RefValue

end
-- ==== Proof.lean ====
/-
  The certificate of the conditional graph-convolution layer: the tiled kernel against the plain reference.

  Both programs gather rows of x and of c along three edge lists, apply a 64-by-64 linear layer and a rectifier to
  every gathered row, scatter-add the three message arrays into node arrays, add them, left to right, to the rectified
  self layer of x, and project; and both apply a rectified layer to c. The kernel does the layers 5000 rows at a time in
  three calls, with the weights transposed beforehand and the biases reshaped to one row; the reference does them on whole
  arrays. Over the extended reals a change of float format is the identity, a product into a zero accumulator is the
  plain sum over the 64 features, and a row of a tile depends on that row alone, so the two programs compute the same
  function of the arguments, entry by entry. The gathers and the scatter-additions are the same host operations on both
  sides and are never opened. Nothing here needs the inputs to be finite: no sum is regrouped and nothing is cancelled.

  The kernel's run and what its buffers hold at the end are in KRun and KFold (over Region0, Region1, Region2 and Tile);
  the reference's result, one operation at a time, in RefStages. Here the two are joined.
-/
import proofs.«165270_j13804024889951_2_alg».proof.Defs
import proofs.«165270_j13804024889951_2_alg».proof.Proof.Gen.Kernel
import proofs.«165270_j13804024889951_2_alg».proof.Proof.Gen.Kernel.Skeleton
import proofs.«165270_j13804024889951_2_alg».proof.Proof.Gen.Kernel.Launch
import proofs.«165270_j13804024889951_2_alg».proof.Proof.Gen.Kernel.Points
import proofs.«165270_j13804024889951_2_alg».proof.Proof.Gen.Kernel.Frame
import proofs.«165270_j13804024889951_2_alg».proof.Proof.Gen.KernelIdeal
import proofs.«165270_j13804024889951_2_alg».proof.Proof.Gen.KernelIdeal.Skeleton
import proofs.«165270_j13804024889951_2_alg».proof.Proof.Gen.KernelIdeal.Launch
import proofs.«165270_j13804024889951_2_alg».proof.Proof.Gen.KernelIdeal.Points
import proofs.«165270_j13804024889951_2_alg».proof.Proof.Gen.KernelIdeal.Frame
import proofs.«165270_j13804024889951_2_alg».proof.Proof.Gen.ReferenceIdeal
import proofs.«165270_j13804024889951_2_alg».proof.Proof.Gen.ReferenceIdeal.Run
import proofs.«165270_j13804024889951_2_alg».proof.Proof.Gen.ReferenceIdeal.Read
import proofs.«165270_j13804024889951_2_alg».proof.Proof.Gen.Pre_finite_inputs
import proofs.«165270_j13804024889951_2_alg».proof.Proof.KRun
import proofs.«165270_j13804024889951_2_alg».proof.Proof.KFold
import proofs.«165270_j13804024889951_2_alg».proof.Proof.RefStages
import Idealize.ShloMosaic.Adequacy
import Idealize.ShloMosaic.Init

noncomputable section

namespace Cert.Proof

open Idealize.ShloMosaic Idealize.ShloMosaic.TcCoe Idealize.SL.Sem

/-! ## The two programs spell their host operations alike -/

/-- The reference's three gathers are the kernel's: the same operation on the same wrapped index column. -/
theorem gather1_eq (x : (⟨Cert.ReferenceIdeal.S100000x64, .f32⟩ : BufTy).Contents (Elt Ideal))
    (e : (⟨Cert.ReferenceIdeal.S1000000, .i32⟩ : BufTy).Contents (Elt Ideal)) :
    Cert.ReferenceIdeal.Read.val_main_v12 (F := Ideal) x e = Cert.KernelIdeal.KFold.gathX x e := rfl
theorem gather2_eq (x : (⟨Cert.ReferenceIdeal.S100000x64, .f32⟩ : BufTy).Contents (Elt Ideal))
    (e : (⟨Cert.ReferenceIdeal.S1000000, .i32⟩ : BufTy).Contents (Elt Ideal)) :
    Cert.ReferenceIdeal.Read.val_main_v28 (F := Ideal) x e = Cert.KernelIdeal.KFold.gathX x e := rfl
theorem gather3_eq (x : (⟨Cert.ReferenceIdeal.S50000x64, .f32⟩ : BufTy).Contents (Elt Ideal))
    (e : (⟨Cert.ReferenceIdeal.S1000000, .i32⟩ : BufTy).Contents (Elt Ideal)) :
    Cert.ReferenceIdeal.Read.val_main_v44 (F := Ideal) x e = Cert.KernelIdeal.KFold.gathC x e := rfl

/-- The reference's scatter-addition into zeros is the kernel's. -/
theorem scatter_eq (e : (⟨Cert.ReferenceIdeal.S1000000, .i32⟩ : BufTy).Contents (Elt Ideal))
    (u : (⟨Cert.ReferenceIdeal.S1000000x64, .f32⟩ : BufTy).Contents (Elt Ideal)) :
    Cert.ReferenceIdeal.RefValue.scat e u = Cert.KernelIdeal.KFold.scatK e u := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the node result and the context result at one
    function of the arguments: the kernel's by its run and the fold of its buffer contents, the reference's by its run
    read one operation at a time. -/
theorem algebraic : Cert.algebraic_KernelIdeal_ReferenceIdeal := by
  intro m ρ m' ρ' _ hagree
  refine ⟨fun c => Cert.KernelIdeal.Gen.W5 m ρ c (Proc.devRef .tc Cert.KernelIdeal.main_v43),
    fun c => Cert.KernelIdeal.Gen.W5 m ρ c (Proc.devRef .tc Cert.KernelIdeal.main_v44),
    Cert.KernelIdeal.KVal.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19⟩ := hagree c
    show _ = Cert.KernelIdeal.Gen.W5 m ρ c (Proc.devRef .tc Cert.KernelIdeal.main_v43)
    rw [Cert.ReferenceIdeal.Read.val_main_v61_eq, Cert.ReferenceIdeal.RefValue.ref_out_x,
      Cert.KernelIdeal.KFold.result_x m ρ c]
    rw [a0, a1, a2, a3, a4, a5, a6, a7, a8, a9, a12, a13, a14, a15, a16, a17, a18, a19]
    simp only [gather1_eq, gather2_eq, gather3_eq, scatter_eq]
    rfl
  · obtain ⟨a0, a1, a2, a3, a4, a5, a6, a7, a8, a9, a10, a11, a12, a13, a14, a15, a16, a17, a18, a19⟩ := hagree c
    show _ = Cert.KernelIdeal.Gen.W5 m ρ c (Proc.devRef .tc Cert.KernelIdeal.main_v44)
    rw [Cert.ReferenceIdeal.Read.val_main_v67_eq, Cert.ReferenceIdeal.RefValue.ref_out_c,
      Cert.KernelIdeal.KFold.result_c m ρ c]
    rw [a1, a10, a11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
